-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x1600000 32) (main_arg2 : FVec F S64x128 .f32) (main_arg3 : FVec F S128 .f32) (main_arg4 : FVec F S128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x64 : Shape := ⟨2, ![5000, 64]⟩
abbrev S5000x128 : Shape := ⟨2, ![5000, 128]⟩
abbrev S1650000x128 : Shape := ⟨2, ![1650000, 128]⟩
abbrev S1x128 : Shape := ⟨2, ![1, 128]⟩
abbrev S1650000x64 : Shape := ⟨2, ![1650000, 64]⟩
abbrev S1x64 : Shape := ⟨2, ![1, 64]⟩

abbrev nBuf : Space → Nat
  | .hbm => 110
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S50000x64, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000x64, .f32⟩
  | .hbm, ⟨100, _⟩ => ⟨S1650000x1, .f32⟩
  | .hbm, ⟨101, _⟩ => ⟨S1650000x64, .f32⟩
  | .hbm, ⟨102, _⟩ => ⟨S1650000x64, .f32⟩
  | .hbm, ⟨103, _⟩ => ⟨S_, .f32⟩
  | .hbm, ⟨104, _⟩ => ⟨S50000x64, .f32⟩
  | .hbm, ⟨105, _⟩ => ⟨S1650000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x64_S64x128_S5000x128_1_0_0_1_n_n_wf : DotDims.WF S5000x64 S64x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S1650000x64 : Shape := ⟨2, ![1650000, 64]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S50000x64, .f32⟩
  | 1 => ⟨S2x1600000, .i32⟩
  | 2 => ⟨S64x128, .f32⟩
  | 3 => ⟨S128, .f32⟩
  | 4 => ⟨S128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S50000, .i32⟩
  | 13 => ⟨S1650000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1650000, .i32⟩
  | 31 => ⟨S1650000, .i1⟩
  | 32 => ⟨S_, .i32⟩
  | 33 => ⟨S1650000, .i32⟩
  | 34 => ⟨S1650000, .i32⟩
  | 35 => ⟨S1650000, .i32⟩
  | 36 => ⟨S1650000x1, .i32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S50000x128, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000x128, .f32⟩
  | 58 => ⟨S1650000x1, .f32⟩
  | 59 => ⟨S1650000x128, .f32⟩
  | 60 => ⟨S1650000x128, .f32⟩
  | 61 => ⟨S_, .f32⟩
  | 62 => ⟨S50000x128, .f32⟩
  | 63 => ⟨S1650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S1x1600000, .i32⟩
  | 116 => ⟨S1600000, .i32⟩
  | 117 => ⟨S1x1600000, .i32⟩
  | 118 => ⟨S1600000, .i32⟩
  | 119 => ⟨S50000, .i32⟩
  | 120 => ⟨S1650000, .i32⟩
  | 121 => ⟨S1650000, .i32⟩
  | 122 => ⟨S_, .f32⟩
  | 123 => ⟨S1650000, .f32⟩
  | 124 => ⟨S_, .f32⟩
  | 125 => ⟨S50000, .f32⟩
  | 126 => ⟨S1650000x1, .i32⟩
  | 127 => ⟨S50000, .f32⟩
  | _ => ⟨S50000x64, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S1650000, .i32⟩
  | 10 => ⟨S1650000, .i1⟩
  | 11 => ⟨S_, .i32⟩
  | 12 => ⟨S1650000, .i32⟩
  | 13 => ⟨S1650000, .i32⟩
  | 14 => ⟨S1650000, .i32⟩
  | 15 => ⟨S1650000x1, .i32⟩
  | 16 => ⟨S1650000, .f32⟩
  | 17 => ⟨S_, .i32⟩
  | 18 => ⟨S1650000, .i32⟩
  | 19 => ⟨S1650000, .i1⟩
  | 20 => ⟨S_, .i32⟩
  | 21 => ⟨S1650000, .i32⟩
  | 22 => ⟨S1650000, .i32⟩
  | 23 => ⟨S1650000, .i32⟩
  | 24 => ⟨S1650000x1, .i32⟩
  | 25 => ⟨S1650000, .f32⟩
  | 26 => ⟨S1650000, .f32⟩
  | 27 => ⟨S50000x64, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000x64, .f32⟩
  | 37 => ⟨S1650000x1, .f32⟩
  | 38 => ⟨S1650000x64, .f32⟩
  | 39 => ⟨S1650000x64, .f32⟩
  | 40 => ⟨S_, .f32⟩
  | 41 => ⟨S50000x64, .f32⟩
  | 42 => ⟨S1650000x1, .i32⟩
  | 43 => ⟨S50000x64, .f32⟩
  | 44 => ⟨S1x64, .f32⟩
  | 45 => ⟨S50000x64, .f32⟩
  | 46 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_12 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call2_cst : Ref sig .tc := ⟨.hbm, 112, rfl⟩
abbrev main_call2_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_13 : Ref sig .tc := ⟨.hbm, 122, rfl⟩
abbrev main_v74 : Ref sig .tc := ⟨.hbm, 123, rfl⟩
abbrev main_cst_14 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_15 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_16 : Ref sig .tc := ⟨.hbm, 132, rfl⟩
abbrev main_call3_v0 : Ref sig .tc := ⟨.hbm, 133, rfl⟩
abbrev main_call3_v1 : Ref sig .tc := ⟨.hbm, 134, rfl⟩
abbrev main_v81 : Ref sig .tc := ⟨.hbm, 135, rfl⟩
abbrev main_c_17 : Ref sig .tc := ⟨.hbm, 136, rfl⟩
abbrev main_v82 : Ref sig .tc := ⟨.hbm, 137, rfl⟩
abbrev main_v83 : Ref sig .tc := ⟨.hbm, 138, rfl⟩
abbrev main_c_18 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_c_19 : Ref sig .tc := ⟨.hbm, 145, rfl⟩
abbrev main_v89 : Ref sig .tc := ⟨.hbm, 146, rfl⟩
abbrev main_v90 : Ref sig .tc := ⟨.hbm, 147, rfl⟩
abbrev main_c_20 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_21 : Ref sig .tc := ⟨.hbm, 156, rfl⟩
abbrev main_v98 : Ref sig .tc := ⟨.hbm, 157, rfl⟩
abbrev main_v99 : Ref sig .tc := ⟨.hbm, 158, rfl⟩
abbrev main_c_22 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_23 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x64_S64x128_S50000x128_1_0_0_1_n_n_wf : DotDims.WF S50000x64 S64x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KRunV.lean ====
/- The idealized kernel program's run with its result named: from any launch memory with zero counters every
   weakly fair execution of @main on the TensorCores terminates, nothing faulting, and in every final state the
   result buffer holds the last boundary's contents of the fold through @main, and each argument array is as
   launched. -/
import proofs.«163689_j11029476016716_1_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of @main with its result named: the result buffer `main_v81` ends at the last boundary's contents
    `W10`, every argument array ends as launched. -/
theorem runV : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KRun

end
-- ==== Proof.KChain.lean ====
/-
  The graph-convolution pipeline's host arithmetic, stage by stage, as pure functions of arrays.

  An edge list `ei : [2, 1600000]` of node numbers gives, after the self loops 0 … 49999 are appended, a source and a
  destination endpoint for each of 1650000 edges.  The degree of node `i` counts the edges whose destination is `i`;
  `dinv i` is `deg i ^ (-1/2)` where the degree is positive and 0 elsewhere; the weight of edge `e` is
  `dinv (src e) * dinv (dst e)`.  One convolution of a feature matrix `h` gathers row `src e` of `h` for every edge,
  scales it by the edge's weight, adds the scaled rows into row `dst e` of a zero matrix, and adds the bias row.
-/
import proofs.«163689_j11029476016716_1_alg».proof.KernelIdeal

noncomputable section

namespace Cert.KChain

open Idealize.ShloMosaic Cert.KernelIdeal

variable {F : FTy → Type} [FloatOps F] [Facts₀]
open Facts₀

/-- Row `r` of the edge list as a vector of 1600000 node numbers. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- The source endpoint of every edge: row 0 of the edge list, then the self loops 0 … 49999. -/
def srcOf (ei : IVec S2x1600000 32) : IVec S1650000 32 :=
  concatenate S1650000 0 [⟨S1600000, edgeRow0 ei⟩, ⟨S50000, iotaInDim S50000 32 0⟩] concatenates_S1600000_S50000_S1650000_d0
/-- The destination endpoint of every edge: row 1 of the edge list, then the self loops. -/
def dstOf (ei : IVec S2x1600000 32) : IVec S1650000 32 :=
  concatenate S1650000 0 [⟨S1600000, edgeRow1 ei⟩, ⟨S50000, iotaInDim S50000 32 0⟩] concatenates_S1600000_S50000_S1650000_d0

/-- A node number read the way an array index is: a negative one counts from the end. -/
def wrapIdx (v : IVec S1650000 32) : IVec S1650000x1 32 :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- The degree of every node: the number of edges that end there. -/
def degOf (dst : IVec S1650000 32) : FVec F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))

/-- `deg ^ (-1/2)` where the degree is positive, 0 elsewhere. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))

/-- The weight of every edge: `dinv` at its source times `dinv` at its destination. -/
def normOf (src dst : IVec S1650000 32) : FVec F S1650000 .f32 :=
  mulf (Host.gather gather_S50000_S1650000x1_S1650000_n_0_n_n_0_1_1 (dinvOf (F := F) (degOf dst)) (wrapIdx src))
    (Host.gather gather_S50000_S1650000x1_S1650000_n_0_n_n_0_1_1 (dinvOf (F := F) (degOf dst)) (wrapIdx dst))

/-- One convolution of a 128-lane feature matrix. -/
def conv128 (src dst : IVec S1650000 32) (nrm : FVec F S1650000 .f32) (h : FVec F S50000x128 .f32) (b : FVec F S128 .f32) :
    FVec F S50000x128 .f32 :=
  addf
    (Host.scatterAdd scatter_S50000x128_S1650000x1_S1650000x128_1_0_0_1
      (broadcastInDim S50000x128 ![] bcast_S_S50000x128 (constant S_ .f32 0x00000000#32))
      (broadcastInDim S1650000x1 ![0] bcast_S1650000_S1650000x1_0 dst)
      (mulf (Host.gather gather_S50000x128_S1650000x1_S1650000x128_1_0_n_n_0_1_1128 h (wrapIdx src))
        (broadcastInDim S1650000x128 ![0, 1] bcast_S1650000x1_S1650000x128_0_1
          (broadcastInDim S1650000x1 ![0] bcast_S1650000_S1650000x1_0 nrm))))
    (broadcastInDim S50000x128 ![0, 1] bcast_S1x128_S50000x128_0_1 (broadcastInDim S1x128 ![1] bcast_S128_S1x128_1 b))

/-- One convolution of a 64-lane feature matrix. -/
def conv64 (src dst : IVec S1650000 32) (nrm : FVec F S1650000 .f32) (h : FVec F S50000x64 .f32) (b : FVec F S64 .f32) :
    FVec F S50000x64 .f32 :=
  addf
    (Host.scatterAdd scatter_S50000x64_S1650000x1_S1650000x64_1_0_0_1
      (broadcastInDim S50000x64 ![] bcast_S_S50000x64 (constant S_ .f32 0x00000000#32))
      (broadcastInDim S1650000x1 ![0] bcast_S1650000_S1650000x1_0 dst)
      (mulf (Host.gather gather_S50000x64_S1650000x1_S1650000x64_1_0_n_n_0_1_164 h (wrapIdx src))
        (broadcastInDim S1650000x64 ![0, 1] bcast_S1650000x1_S1650000x64_0_1
          (broadcastInDim S1650000x1 ![0] bcast_S1650000_S1650000x1_0 nrm))))
    (broadcastInDim S50000x64 ![0, 1] bcast_S1x64_S50000x64_0_1 (broadcastInDim S1x64 ![1] bcast_S64_S1x64_1 b))

end Cert.KChain

end
-- ==== Proof.KBn.lean ====
/-
  The kernel side's batch-normalisation arithmetic between the column statistics and the normalising pass, as pure
  functions of arrays: from the column sums `s` and the column sums of squares `ss` (each kept as one row), the mean
  is `s / 50000`, the variance `ss / 50000 - mean * mean`, the scale `g * (variance + 1e-5)^(-1/2)` and the shift
  `be - mean * scale`, the last two recast as rows.
-/
import proofs.«163689_j11029476016716_1_alg».proof.KernelIdeal

noncomputable section

namespace Cert.KBn

open Idealize.ShloMosaic Cert.KernelIdeal

variable {F : FTy → Type} [FloatOps F] [Facts₀]
open Facts₀

/-- The column means. -/
def meanK (s : FVec F S1x128 .f32) : FVec F S128 .f32 :=
  Host.divf (shapeCast S128 s shapeCasts_S1x128_S128) (broadcastInDim S128 ![] bcast_S_S128 (constant S_ .f32 0x47435000#32))

/-- The column variances, as the mean of the squares less the square of the mean. -/
def varK (s ss : FVec F S1x128 .f32) : FVec F S128 .f32 :=
  subf (Host.divf (shapeCast S128 ss shapeCasts_S1x128_S128) (broadcastInDim S128 ![] bcast_S_S128 (constant S_ .f32 0x47435000#32)))
    (mulf (meanK s) (meanK s))

/-- The per-column scale. -/
def scaleV (s ss : FVec F S1x128 .f32) (g : FVec F S128 .f32) : FVec F S128 .f32 :=
  mulf g (Host.rsqrt (addf (varK s ss) (broadcastInDim S128 ![] bcast_S_S128 (constant S_ .f32 0x3727C5AC#32))))

/-- The per-column shift. -/
def shiftV (s ss : FVec F S1x128 .f32) (g be : FVec F S128 .f32) : FVec F S128 .f32 :=
  subf be (mulf (meanK s) (scaleV s ss g))

/-- Scale and shift as rows. -/
def scaleK (s ss : FVec F S1x128 .f32) (g : FVec F S128 .f32) : FVec F S1x128 .f32 :=
  shapeCast S1x128 (scaleV s ss g) shapeCasts_S128_S1x128
def shiftK (s ss : FVec F S1x128 .f32) (g be : FVec F S128 .f32) : FVec F S1x128 .f32 :=
  shapeCast S1x128 (shiftV s ss g be) shapeCasts_S128_S1x128

end Cert.KBn

end
-- ==== Proof.KFoldBase.lean ====
/- The folds between the idealized kernel program's four regions, first part: which buffers each stretch of host
   operations writes, that every other buffer is left as it was, and the edge endpoints, the inverse square roots of
   the degrees and the edge weights as the stretches before the first region compute them. -/
import proofs.«163689_j11029476016716_1_alg».proof.Proof.Gen.KernelIdeal.Frame
import proofs.«163689_j11029476016716_1_alg».proof.Proof.KChain
import proofs.«163689_j11029476016716_1_alg».proof.Proof.KBn

set_option maxRecDepth 16384

noncomputable section

namespace Cert.KRun

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]
variable (m : (ℓ : Loc nD τ sig) → Buf (Elt F) ℓ) (ρ : Dev nD → PrngReg)

/-! ## What each stretch of host operations writes -/

/-- The buffers the six stretches of host operations write, stretch by stretch. -/
def wr0 : List (Ref sig .tc) := [main_v0, main_v1, main_v2, main_v3, main_v4, main_v5, main_v6, main_cst, main_v7, main_cst_0, main_v8, main_v9, main_v10, main_cst_1, main_v11, main_v12, main_v13, main_cst_2]
def wr0_1 : List (Ref sig .tc) := [main_call0_v0, main_call0_v1, main_v14]
def wr0_2 : List (Ref sig .tc) := [main_c, main_v15, main_v16, main_c_3, main_v17, main_v18, main_v19, main_v20, main_v21, main_c_4, main_v22, main_v23, main_c_5, main_v24, main_v25, main_v26, main_v27, main_v28, main_v29]
def wr1 : List (Ref sig .tc) := [main_c_6, main_v31, main_v32, main_c_7, main_v33, main_v34, main_v35, main_v36, main_v37, main_v38, main_v39, main_v40, main_cst_8, main_v41, main_v42, main_v43, main_v44, main_v45, main_v46]
def wr2 : List (Ref sig .tc) := [main_v48, main_cst_9, main_v49, main_v50, main_v51, main_cst_10, main_v52, main_v53, main_v54, main_v55, main_cst_11, main_v56, main_v57, main_v58, main_v59, main_v60, main_v61, main_v62, main_v63]
def wr4 : List (Ref sig .tc) := [main_c_12, main_v66, main_v67, main_c_13, main_v68, main_v69, main_v70, main_v71, main_v72, main_v73, main_v74, main_v75, main_cst_14, main_v76, main_v77, main_v78, main_v79, main_v80, main_v81]

theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem hostOps0_1_writes : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem hostOps0_2_writes : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem hostOps2_writes : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩
theorem hostOps4_writes : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map.mpr ⟨_, by decide, rfl⟩

/-! ## A buffer a segment does not write holds what it held before the segment -/

theorem W1_keep (c : Dev nD) (r : Ref sig .tc) (hr : r ∉ wr0) : W1 m ρ c (Proc.devRef .tc r) = W0 m ρ c (Proc.devRef .tc r) :=
  StableHlo.after_of_writes_sub _ _ hostOps0_writes hr
theorem W2_keep (c : Dev nD) (r : Ref sig .tc) (hr : r ∉ wr0_1) : W2 m ρ c (Proc.devRef .tc r) = W1 m ρ c (Proc.devRef .tc r) :=
  StableHlo.after_of_writes_sub _ _ hostOps0_1_writes hr
theorem W3_keep (c : Dev nD) (r : Ref sig .tc) (hr : r ∉ wr0_2) : W3 m ρ c (Proc.devRef .tc r) = W2 m ρ c (Proc.devRef .tc r) :=
  StableHlo.after_of_writes_sub _ _ hostOps0_2_writes hr
theorem W5_keep (c : Dev nD) (r : Ref sig .tc) (hr : r ∉ wr1) : W5 m ρ c (Proc.devRef .tc r) = W4 m ρ c (Proc.devRef .tc r) :=
  StableHlo.after_of_writes_sub _ _ hostOps1_writes hr
theorem W7_keep (c : Dev nD) (r : Ref sig .tc) (hr : r ∉ wr2) : W7 m ρ c (Proc.devRef .tc r) = W6 m ρ c (Proc.devRef .tc r) :=
  StableHlo.after_of_writes_sub _ _ hostOps2_writes hr
theorem W10_keep (c : Dev nD) (r : Ref sig .tc) (hr : r ∉ wr4) : W10 m ρ c (Proc.devRef .tc r) = W9 m ρ c (Proc.devRef .tc r) :=
  StableHlo.after_of_writes_sub _ _ hostOps4_writes hr

/-- A buffer none of the three stretches before region 0 writes holds at region 0's entry what the launch gave it. -/
theorem W3_launch (c : Dev nD) (r : Ref sig .tc) (h0 : r ∉ wr0) (h1 : r ∉ wr0_1) (h2 : r ∉ wr0_2) :
    W3 m ρ c (Proc.devRef .tc r) = m ((c.tc : Thread nD τ).loc r) :=
  (W3_keep m ρ c r h2).trans ((W2_keep m ρ c r h1).trans ((W1_keep m ρ c r h0).trans rfl))

/-- A buffer that is no array of region 0 or 1 and that the stretch between them does not write holds at region 1's
    exit what it held at region 0's entry. -/
theorem W6_eq_W3 (c : Dev nD) (r : Ref sig .tc) (a0 : ∀ w, Pipeline.arrRef spec0 w ≠ r) (h1 : r ∉ wr1)
    (a1 : ∀ w, Pipeline.arrRef spec1 w ≠ r) : W6 m ρ c (Proc.devRef .tc r) = W3 m ρ c (Proc.devRef .tc r) :=
  (W6_of_ne m ρ c r a1).trans ((W5_keep m ρ c r h1).trans (W4_of_ne m ρ c r a0))

/-- The same from region 3's exit, for a buffer that is no array of any region and that neither stretch between the
    regions writes. -/
theorem W9_eq_W3 (c : Dev nD) (r : Ref sig .tc) (a0 : ∀ w, Pipeline.arrRef spec0 w ≠ r) (h1 : r ∉ wr1)
    (a1 : ∀ w, Pipeline.arrRef spec1 w ≠ r) (h2 : r ∉ wr2) (a2 : ∀ w, Pipeline.arrRef spec2 w ≠ r)
    (a3 : ∀ w, Pipeline.arrRef spec3 w ≠ r) : W9 m ρ c (Proc.devRef .tc r) = W3 m ρ c (Proc.devRef .tc r) :=
  (W9_of_ne m ρ c r a3).trans ((W8_of_ne m ρ c r a2).trans ((W7_keep m ρ c r h2).trans (W6_eq_W3 m ρ c r a0 h1 a1)))

/-! ## The edge endpoints, the degrees' inverse roots and the edge weights, as the stretches before region 0 leave them -/

theorem W1_v5 (c : Dev nD) : W1 m ρ c (Proc.devRef .tc main_v5) = Cert.KChain.srcOf (m ((c.tc : Thread nD τ).loc main_arg1)) := by
  show StableHlo.after hostOps0 (W0 m ρ c) (Proc.devRef .tc main_v5) = _
  after_results
  rfl
theorem W1_v6 (c : Dev nD) : W1 m ρ c (Proc.devRef .tc main_v6) = Cert.KChain.dstOf (m ((c.tc : Thread nD τ).loc main_arg1)) := by
  show StableHlo.after hostOps0 (W0 m ρ c) (Proc.devRef .tc main_v6) = _
  after_results
  rfl
theorem W1_v12 (c : Dev nD) : W1 m ρ c (Proc.devRef .tc main_v12)
    = cmpf .ogt (Cert.KChain.degOf (F := F) (Cert.KChain.dstOf (m ((c.tc : Thread nD τ).loc main_arg1)))) (broadcastInDim S50000 ![] bcast_S_S50000 (constant S_ .f32 0x00000000#32)) := by
  show StableHlo.after hostOps0 (W0 m ρ c) (Proc.devRef .tc main_v12) = _
  after_results
  rfl
theorem W1_v13 (c : Dev nD) : W1 m ρ c (Proc.devRef .tc main_v13) = Host.rsqrt (Cert.KChain.degOf (F := F) (Cert.KChain.dstOf (m ((c.tc : Thread nD τ).loc main_arg1)))) := by
  show StableHlo.after hostOps0 (W0 m ρ c) (Proc.devRef .tc main_v13) = _
  after_results
  rfl
theorem W1_cst_2 (c : Dev nD) : W1 m ρ c (Proc.devRef .tc main_cst_2) = constant (F := F) S_ .f32 0x00000000#32 := by
  show StableHlo.after hostOps0 (W0 m ρ c) (Proc.devRef .tc main_cst_2) = _
  after_results

theorem W2_v14 (c : Dev nD) : W2 m ρ c (Proc.devRef .tc main_v14) = Cert.KChain.dinvOf (F := F) (Cert.KChain.degOf (F := F) (Cert.KChain.dstOf (m ((c.tc : Thread nD τ).loc main_arg1)))) := by
  have h12 := W1_v12 m ρ c
  have h13 := W1_v13 m ρ c
  have hc := W1_cst_2 m ρ c
  show StableHlo.after hostOps0_1 (W1 m ρ c) (Proc.devRef .tc main_v14) = _
  generalize W1 m ρ c = V at h12 h13 hc ⊢
  after_results
  rw [h12, h13, hc]
  rfl
theorem W2_v5 (c : Dev nD) : W2 m ρ c (Proc.devRef .tc main_v5) = Cert.KChain.srcOf (m ((c.tc : Thread nD τ).loc main_arg1)) :=
  (W2_keep m ρ c main_v5 (by decide)).trans (W1_v5 m ρ c)
theorem W2_v6 (c : Dev nD) : W2 m ρ c (Proc.devRef .tc main_v6) = Cert.KChain.dstOf (m ((c.tc : Thread nD τ).loc main_arg1)) :=
  (W2_keep m ρ c main_v6 (by decide)).trans (W1_v6 m ρ c)

theorem W3_v5 (c : Dev nD) : W3 m ρ c (Proc.devRef .tc main_v5) = Cert.KChain.srcOf (m ((c.tc : Thread nD τ).loc main_arg1)) :=
  (W3_keep m ρ c main_v5 (by decide)).trans (W2_v5 m ρ c)
theorem W3_v6 (c : Dev nD) : W3 m ρ c (Proc.devRef .tc main_v6) = Cert.KChain.dstOf (m ((c.tc : Thread nD τ).loc main_arg1)) :=
  (W3_keep m ρ c main_v6 (by decide)).trans (W2_v6 m ρ c)
theorem W3_v29 (c : Dev nD) : W3 m ρ c (Proc.devRef .tc main_v29) = Cert.KChain.normOf (F := F) (Cert.KChain.srcOf (m ((c.tc : Thread nD τ).loc main_arg1))) (Cert.KChain.dstOf (m ((c.tc : Thread nD τ).loc main_arg1))) := by
  have h14 := W2_v14 m ρ c
  have h5 := W2_v5 m ρ c
  have h6 := W2_v6 m ρ c
  show StableHlo.after hostOps0_2 (W2 m ρ c) (Proc.devRef .tc main_v29) = _
  generalize W2 m ρ c = V at h14 h5 h6 ⊢
  after_results_simp
  rw [h14, h5, h6]
  rfl

end Cert.KRun

end
-- ==== Proof.KFold.lean ====
/- The folds between the idealized kernel program's four regions: what each region reads at its entry and what the
   last stretch of host operations leaves in the result buffer, as the pure array functions of the graph
   convolution and of the batch normalisation between its two layers. -/
import proofs.«163689_j11029476016716_1_alg».proof.Proof.Gen.KernelIdeal.Frame
import proofs.«163689_j11029476016716_1_alg».proof.Proof.KChain
import proofs.«163689_j11029476016716_1_alg».proof.Proof.KBn
import proofs.«163689_j11029476016716_1_alg».proof.Proof.KFoldBase

set_option maxRecDepth 16384

noncomputable section

namespace Cert.KRun

open Cert.KernelIdeal Cert.KernelIdeal.Gen
open Idealize.ShloMosaic Idealize.ShloMosaic.TcCoe Idealize.ShloMosaic.Tactic
open Idealize.ShloMosaic.Pipeline (Dat Cfg Window cellOf)

variable {F : FTy → Type} [FloatOps F]
variable (m : (ℓ : Loc nD τ sig) → Buf (Elt F) ℓ) (ρ : Dev nD → PrngReg)

/-! ## Region 0: what it reads, and what the stretch after it makes of its result -/

theorem V3_arg0 (c : Dev nD) : V3 m ρ c main_arg0 = m ((c.tc : Thread nD τ).loc main_arg0) :=
  W3_launch m ρ c main_arg0 (by decide) (by decide) (by decide)
theorem V3_arg2 (c : Dev nD) : V3 m ρ c main_arg2 = m ((c.tc : Thread nD τ).loc main_arg2) :=
  W3_launch m ρ c main_arg2 (by decide) (by decide) (by decide)

theorem W4_v5 (c : Dev nD) : W4 m ρ c (Proc.devRef .tc main_v5) = Cert.KChain.srcOf (m ((c.tc : Thread nD τ).loc main_arg1)) :=
  (W4_of_ne m ρ c main_v5 (by decide)).trans (W3_v5 m ρ c)
theorem W4_v6 (c : Dev nD) : W4 m ρ c (Proc.devRef .tc main_v6) = Cert.KChain.dstOf (m ((c.tc : Thread nD τ).loc main_arg1)) :=
  (W4_of_ne m ρ c main_v6 (by decide)).trans (W3_v6 m ρ c)
theorem W4_v29 (c : Dev nD) : W4 m ρ c (Proc.devRef .tc main_v29) = Cert.KChain.normOf (F := F) (Cert.KChain.srcOf (m ((c.tc : Thread nD τ).loc main_arg1))) (Cert.KChain.dstOf (m ((c.tc : Thread nD τ).loc main_arg1))) :=
  (W4_of_ne m ρ c main_v29 (by decide)).trans (W3_v29 m ρ c)
theorem W4_v30 (c : Dev nD) : W4 m ρ c (Proc.devRef .tc main_v30) = ((dat0 (V3 m ρ) c).arrAt 2 cfg0.N : S50000x128.Idx → Elt F .f32) :=
  W4_arr m ρ c 2
theorem W4_arg3 (c : Dev nD) : W4 m ρ c (Proc.devRef .tc main_arg3) = m ((c.tc : Thread nD τ).loc main_arg3) :=
  (W4_of_ne m ρ c main_arg3 (by decide)).trans (W3_launch m ρ c main_arg3 (by decide) (by decide) (by decide))

/-- Region 1's operand: the first convolution of region 0's product. -/
theorem V5_v46 (c : Dev nD) : V5 m ρ c main_v46 = Cert.KChain.conv128 (Cert.KChain.srcOf (m ((c.tc : Thread nD τ).loc main_arg1))) (Cert.KChain.dstOf (m ((c.tc : Thread nD τ).loc main_arg1))) (Cert.KChain.normOf (F := F) (Cert.KChain.srcOf (m ((c.tc : Thread nD τ).loc main_arg1))) (Cert.KChain.dstOf (m ((c.tc : Thread nD τ).loc main_arg1)))) ((dat0 (V3 m ρ) c).arrAt 2 cfg0.N : S50000x128.Idx → Elt F .f32) (m ((c.tc : Thread nD τ).loc main_arg3)) := by
  have h5 := W4_v5 m ρ c
  have h6 := W4_v6 m ρ c
  have h29 := W4_v29 m ρ c
  have h30 := W4_v30 m ρ c
  have h3 := W4_arg3 m ρ c
  show StableHlo.after hostOps1 (W4 m ρ c) (Proc.devRef .tc main_v46) = _
  generalize W4 m ρ c = V at h5 h6 h29 h30 h3 ⊢
  after_results_simp
  rw [h5, h6, h29, h30, h3]
  rfl

/-! ## Region 1 leaves its operand; the stretch after it turns the column statistics into scale and shift -/

theorem W6_v46 (c : Dev nD) : W6 m ρ c (Proc.devRef .tc main_v46) = V5 m ρ c main_v46 :=
  (W6_arr m ρ c 0).trans (((dat1 (V5 m ρ) c).arrAt_in 0 rfl _).trans (A_eq1 (V5 m ρ) c 0))
/-- Region 2's first operand is still that convolution. -/
theorem V7_v46 (c : Dev nD) : V7 m ρ c main_v46 = Cert.KChain.conv128 (Cert.KChain.srcOf (m ((c.tc : Thread nD τ).loc main_arg1))) (Cert.KChain.dstOf (m ((c.tc : Thread nD τ).loc main_arg1))) (Cert.KChain.normOf (F := F) (Cert.KChain.srcOf (m ((c.tc : Thread nD τ).loc main_arg1))) (Cert.KChain.dstOf (m ((c.tc : Thread nD τ).loc main_arg1)))) ((dat0 (V3 m ρ) c).arrAt 2 cfg0.N : S50000x128.Idx → Elt F .f32) (m ((c.tc : Thread nD τ).loc main_arg3)) :=
  (W7_keep m ρ c main_v46 (by decide)).trans ((W6_v46 m ρ c).trans (V5_v46 m ρ c))

theorem W6_v47_0 (c : Dev nD) : W6 m ρ c (Proc.devRef .tc main_v47_0) = ((dat1 (V5 m ρ) c).arrAt 1 cfg1.N : S1x128.Idx → Elt F .f32) :=
  W6_arr m ρ c 1
theorem W6_v47_1 (c : Dev nD) : W6 m ρ c (Proc.devRef .tc main_v47_1) = ((dat1 (V5 m ρ) c).arrAt 2 cfg1.N : S1x128.Idx → Elt F .f32) :=
  W6_arr m ρ c 2
theorem W6_arg4 (c : Dev nD) : W6 m ρ c (Proc.devRef .tc main_arg4) = m ((c.tc : Thread nD τ).loc main_arg4) :=
  (W6_eq_W3 m ρ c main_arg4 (by decide) (by decide) (by decide)).trans (W3_launch m ρ c main_arg4 (by decide) (by decide) (by decide))
theorem W6_arg5 (c : Dev nD) : W6 m ρ c (Proc.devRef .tc main_arg5) = m ((c.tc : Thread nD τ).loc main_arg5) :=
  (W6_eq_W3 m ρ c main_arg5 (by decide) (by decide) (by decide)).trans (W3_launch m ρ c main_arg5 (by decide) (by decide) (by decide))

/-- Region 2's scale row. -/
theorem V7_v62 (c : Dev nD) : V7 m ρ c main_v62 = Cert.KBn.scaleK ((dat1 (V5 m ρ) c).arrAt 1 cfg1.N : S1x128.Idx → Elt F .f32) ((dat1 (V5 m ρ) c).arrAt 2 cfg1.N : S1x128.Idx → Elt F .f32) (m ((c.tc : Thread nD τ).loc main_arg4)) := by
  have hs := W6_v47_0 m ρ c
  have hss := W6_v47_1 m ρ c
  have h4 := W6_arg4 m ρ c
  show StableHlo.after hostOps2 (W6 m ρ c) (Proc.devRef .tc main_v62) = _
  generalize W6 m ρ c = V at hs hss h4 ⊢
  after_results_simp
  rw [hs, hss, h4]
  rfl
/-- Region 2's shift row. -/
theorem V7_v63 (c : Dev nD) : V7 m ρ c main_v63 = Cert.KBn.shiftK ((dat1 (V5 m ρ) c).arrAt 1 cfg1.N : S1x128.Idx → Elt F .f32) ((dat1 (V5 m ρ) c).arrAt 2 cfg1.N : S1x128.Idx → Elt F .f32) (m ((c.tc : Thread nD τ).loc main_arg4)) (m ((c.tc : Thread nD τ).loc main_arg5)) := by
  have hs := W6_v47_0 m ρ c
  have hss := W6_v47_1 m ρ c
  have h4 := W6_arg4 m ρ c
  have h5 := W6_arg5 m ρ c
  show StableHlo.after hostOps2 (W6 m ρ c) (Proc.devRef .tc main_v63) = _
  generalize W6 m ρ c = V at hs hss h4 h5 ⊢
  after_results_simp
  rw [hs, hss, h4, h5]
  rfl

/-! ## Region 3 reads region 2's result and the second weight matrix as launched -/

theorem V8_v64 (c : Dev nD) : V8 m ρ c main_v64 = (dat2 (V7 m ρ) c).arrAt 3 cfg2.N :=
  W8_arr m ρ c 3
theorem V8_arg6 (c : Dev nD) : V8 m ρ c main_arg6 = m ((c.tc : Thread nD τ).loc main_arg6) :=
  (W8_of_ne m ρ c main_arg6 (by decide)).trans ((W7_keep m ρ c main_arg6 (by decide)).trans
    ((W6_eq_W3 m ρ c main_arg6 (by decide) (by decide) (by decide)).trans (W3_launch m ρ c main_arg6 (by decide) (by decide) (by decide))))

/-! ## The last stretch: the second convolution, of region 3's product -/

theorem W9_v5 (c : Dev nD) : W9 m ρ c (Proc.devRef .tc main_v5) = Cert.KChain.srcOf (m ((c.tc : Thread nD τ).loc main_arg1)) :=
  (W9_eq_W3 m ρ c main_v5 (by decide) (by decide) (by decide) (by decide) (by decide) (by decide)).trans (W3_v5 m ρ c)
theorem W9_v6 (c : Dev nD) : W9 m ρ c (Proc.devRef .tc main_v6) = Cert.KChain.dstOf (m ((c.tc : Thread nD τ).loc main_arg1)) :=
  (W9_eq_W3 m ρ c main_v6 (by decide) (by decide) (by decide) (by decide) (by decide) (by decide)).trans (W3_v6 m ρ c)
theorem W9_v29 (c : Dev nD) : W9 m ρ c (Proc.devRef .tc main_v29) = Cert.KChain.normOf (F := F) (Cert.KChain.srcOf (m ((c.tc : Thread nD τ).loc main_arg1))) (Cert.KChain.dstOf (m ((c.tc : Thread nD τ).loc main_arg1))) :=
  (W9_eq_W3 m ρ c main_v29 (by decide) (by decide) (by decide) (by decide) (by decide) (by decide)).trans (W3_v29 m ρ c)
theorem W9_v65 (c : Dev nD) : W9 m ρ c (Proc.devRef .tc main_v65) = ((dat3 (V8 m ρ) c).arrAt 2 cfg3.N : S50000x64.Idx → Elt F .f32) :=
  W9_arr m ρ c 2
theorem W9_arg7 (c : Dev nD) : W9 m ρ c (Proc.devRef .tc main_arg7) = m ((c.tc : Thread nD τ).loc main_arg7) :=
  (W9_eq_W3 m ρ c main_arg7 (by decide) (by decide) (by decide) (by decide) (by decide) (by decide)).trans (W3_launch m ρ c main_arg7 (by decide) (by decide) (by decide))

/-- The result buffer at the last boundary: the second convolution of region 3's product. -/
theorem W10_out (c : Dev nD) : W10 m ρ c (Proc.devRef .tc main_v81)
    = Cert.KChain.conv64 (Cert.KChain.srcOf (m ((c.tc : Thread nD τ).loc main_arg1))) (Cert.KChain.dstOf (m ((c.tc : Thread nD τ).loc main_arg1))) (Cert.KChain.normOf (F := F) (Cert.KChain.srcOf (m ((c.tc : Thread nD τ).loc main_arg1))) (Cert.KChain.dstOf (m ((c.tc : Thread nD τ).loc main_arg1)))) ((dat3 (V8 m ρ) c).arrAt 2 cfg3.N : S50000x64.Idx → Elt F .f32) (m ((c.tc : Thread nD τ).loc main_arg7)) := by
  have h5 := W9_v5 m ρ c
  have h6 := W9_v6 m ρ c
  have h29 := W9_v29 m ρ c
  have h65 := W9_v65 m ρ c
  have h7 := W9_arg7 m ρ c
  show StableHlo.after hostOps4 (W9 m ρ c) (Proc.devRef .tc main_v81) = _
  generalize W9 m ρ c = V at h5 h6 h29 h65 h7 ⊢
  after_results_simp
  rw [h5, h6, h29, h65, h7]
  rfl

end Cert.KRun

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KRegionMM.lean ====
/-
  What the two matrix-product regions of the kernel leave in their output arrays, read at an index, at the extended reals.
  Each region runs one grid of 10 points over blocks of 5000 rows: at point t it stages rows [5000 t, 5000 t + 5000) of the
  left operand and the whole right operand, forms the product of the two blocks into a zero accumulator (the narrowing to
  bf16 before the product is the identity on extended reals), and writes the result back as rows [5000 t, 5000 t + 5000) of
  the output. The 10 blocks tile the output's 50000 rows, so the output array ends as the one function
  (r, j) ↦ ∑ k, x (r, k) · w (k, j) of the region's two input arrays as it finds them.
-/
import proofs.«163689_j11029476016716_1_alg».proof.Proof.Gen.KernelIdeal.Frame
import proofs.«163689_j11029476016716_1_alg».proof.Proof.LibPlainDot
import Idealize.ShloMosaic.Lib.Pipeline.Value
import Idealize.ShloMosaic.Lib.ValueIdx

noncomputable section

namespace Cert.KRegion

open Cert.KernelIdeal Cert.KernelIdeal.Gen Idealize.ShloMosaic Idealize.ShloMosaic.ValueIdx Idealize.ShloMosaic.TcCoe
open Idealize.ShloMosaic.Pipeline (Dat)

/-! ## The two products' dimension numbers are those of a plain [M, K] × [K, N] product -/

theorem plain0 : PlainDot.IsPlain dot_S5000x64_S64x128_S5000x128_1_0_0_1_n_n where
  rank := rfl
  size := rfl
  lhs0 := fun i q => rfl
  lhs1 := fun i q => rfl
  rhs0 := fun i q => rfl
  rhs1 := fun i q => rfl

/-- The payload of region 0 at an index of its block: the product of the two staged blocks. -/
theorem pay0_apply (x0 : Vec Ideal S5000x64 .f32) (x1 : Vec Ideal S64x128 .f32) (r : Fin 5000) (j : Fin 128) :
    k0_pay1 x0 x1 (ix2 r j) = ∑ k : Fin 64, x0 (ix2 r k) * x1 (ix2 k j) := by
  unfold k0_pay1
  exact PlainDot.matmul_zero_apply _ plain0 none _ _ r j

theorem plain3 : PlainDot.IsPlain dot_S5000x128_S128x64_S5000x64_1_0_0_1_n_n where
  rank := rfl
  size := rfl
  lhs0 := fun i q => rfl
  lhs1 := fun i q => rfl
  rhs0 := fun i q => rfl
  rhs1 := fun i q => rfl

/-- The payload of region 3 at an index of its block: the product of the two staged blocks (the reshape of the left block to
    its own shape is the identity). -/
theorem pay3_apply (x0 : Vec Ideal S5000x128 .f32) (x1 : Vec Ideal S128x64 .f32) (r : Fin 5000) (j : Fin 64) :
    k3_pay1 x0 x1 (ix2 r j) = ∑ k : Fin 128, x0 (ix2 r k) * x1 (ix2 k j) := by
  unfold k3_pay1
  simp only [shapeCast_self]
  exact PlainDot.matmul_zero_apply _ plain3 none _ _ r j

variable (V : (c : Dev nD) → (b : Ref sig .tc) → Buf (Elt Ideal) ((c : Thread nD τ).loc b))

theorem zero_offsets : (![0, 0] : Fin 2 → Nat) = fun _ => 0 := funext fun a => by fin_cases a <;> rfl

/-! ## Region 0: [50000, 64] × [64, 128] -/

/-- The product of a [50000, 64] array and a [64, 128] array, index by index. -/
def prod0 (x : S50000x64.Idx → EReal) (w : S64x128.Idx → EReal) : S50000x128.Idx → EReal :=
  fun i => ∑ k : Fin 64, x (ix2 (i 0) k) * w (ix2 k (i 1))

/-- The index maps over the grid: the left operand's row block moves with the output's; every other block index is 0. -/
theorem index_maps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the output is some point's. -/
theorem index_onto0 : ∀ q : Fin 10, ∃ t : Fin cfg0.N, win0_2.index t = ![q.val, 0] :=
  (by decide +kernel : ∀ q : Fin 10, ∃ t : Fin grid0.N, win0_2.index t = ![q.val, 0])

/-- One element of a point's result: the product of the staged blocks at local index y is the whole arrays' product at
    array index i, once row y 0 of the left block is row i 0 of the left array and column y 1 of the right block is column
    i 1 of the right array. -/
theorem point0 (x : S50000x64.Idx → EReal) (w : S64x128.Idx → EReal)
    (x0 : Vec Ideal S5000x64 .f32) (x1 : Vec Ideal S64x128 .f32) (y : S5000x128.Idx) (i : S50000x128.Idx)
    (hx : ∀ k : Fin 64, x0 (ix2 (y 0) k) = x (ix2 (i 0) k))
    (hw : ∀ k : Fin 64, x1 (ix2 k (y 1)) = w (ix2 k (i 1))) :
    k0_pay1 x0 x1 y = prod0 x w i :=
  (congrArg (k0_pay1 x0 x1) (eq_ix2 y)).trans
    ((pay0_apply x0 x1 (y 0) (y 1)).trans (Finset.sum_congr rfl fun k _ => by rw [hx k, hw k]))

/-- What point t writes back is block t of the product of the region's two input arrays. -/
theorem flushed0_eq (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x128) zero_offsets]
  obtain ⟨e0, e1, e2, e3, e4, e5⟩ := index_maps0 t
  funext y
  refine point0 (V c main_arg0) (V c main_arg2) (iblk0 V c 0 t) (iblk0 V c 1 t) y (((cfg0.win 2).blk t).view.emb y)
    (fun k => ?_) (fun k => ?_)
  · show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  · show V c main_arg2 (((cfg0.win 1).blk t).view.emb (ix2 k (y 1))) = V c main_arg2 (ix2 k ((((cfg0.win 2).blk t).view.emb y) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 128 + 1 * (y 1).val = win0_2.index t (1 : Fin 2) * 128 + 1 * (y 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row r is in block r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the region's two input arrays. -/
theorem final0 (c : Dev nD) :
    (dat0 (F := Ideal) V c).arrAt 2 cfg0.N = prod0 (V c main_arg0) (V c main_arg2) :=
  (dat0 V c).arrAt_eq_of_cover 2 (prod0 (V c main_arg0) (V c main_arg2)) (fun t _ => flushed0_eq V c t) cover0

/-- REGION 0's output array at (r, j): ∑ k, x (r, k) · w (k, j), where x and w are the arrays the region finds in its two
    input windows (the hypotheses name them at their literal function types, so that the product is the extended reals'). -/
theorem region0_value (c : Dev nD) (r : Fin 50000) (j : Fin 128) (x : S50000x64.Idx → EReal) (w : S64x128.Idx → EReal)
    (hx : (V c main_arg0 : S50000x64.Idx → EReal) = x) (hw : (V c main_arg2 : S64x128.Idx → EReal) = w) :
    ((dat0 (F := Ideal) V c).arrAt 2 cfg0.N : S50000x128.Idx → EReal) (ix2 r j) = ∑ k : Fin 64, x (ix2 r k) * w (ix2 k j) := by
  subst hx hw
  rw [final0]
  rfl

/-! ## Region 3: [50000, 128] × [128, 64] -/

/-- The product of a [50000, 128] array and a [128, 64] array, index by index. -/
def prod3 (x : S50000x128.Idx → EReal) (w : S128x64.Idx → EReal) : S50000x64.Idx → EReal :=
  fun i => ∑ k : Fin 128, x (ix2 (i 0) k) * w (ix2 k (i 1))

/-- The index maps over the grid: the left operand's row block moves with the output's; every other block index is 0. -/
theorem index_maps3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every row block of the output is some point's. -/
theorem index_onto3 : ∀ q : Fin 10, ∃ t : Fin cfg3.N, win3_2.index t = ![q.val, 0] :=
  (by decide +kernel : ∀ q : Fin 10, ∃ t : Fin grid3.N, win3_2.index t = ![q.val, 0])

/-- One element of a point's result: the product of the staged blocks at local index y is the whole arrays' product at
    array index i, once row y 0 of the left block is row i 0 of the left array and column y 1 of the right block is column
    i 1 of the right array. -/
theorem point3 (x : S50000x128.Idx → EReal) (w : S128x64.Idx → EReal)
    (x0 : Vec Ideal S5000x128 .f32) (x1 : Vec Ideal S128x64 .f32) (y : S5000x64.Idx) (i : S50000x64.Idx)
    (hx : ∀ k : Fin 128, x0 (ix2 (y 0) k) = x (ix2 (i 0) k))
    (hw : ∀ k : Fin 128, x1 (ix2 k (y 1)) = w (ix2 k (i 1))) :
    k3_pay1 x0 x1 y = prod3 x w i :=
  (congrArg (k3_pay1 x0 x1) (eq_ix2 y)).trans
    ((pay3_apply x0 x1 (y 0) (y 1)).trans (Finset.sum_congr rfl fun k _ => by rw [hx k, hw k]))

/-- What point t writes back is block t of the product of the region's two input arrays. -/
theorem flushed3_eq (c : Dev nD) (t : Fin cfg3.N) :
    (dat3 (F := Ideal) V c).flushed 2 t
      = ((cfg3.win 2).blk t).view.read (Elt Ideal) (prod3 (V c main_v64) (V c main_arg6)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x64) zero_offsets]
  obtain ⟨e0, e1, e2, e3, e4, e5⟩ := index_maps3 t
  funext y
  refine point3 (V c main_v64) (V c main_arg6) (iblk3 V c 0 t) (iblk3 V c 1 t) y (((cfg3.win 2).blk t).view.emb y)
    (fun k => ?_) (fun k => ?_)
  · show V c main_v64 (((cfg3.win 0).blk t).view.emb (ix2 (y 0) k)) = V c main_v64 (ix2 ((((cfg3.win 2).blk t).view.emb y) 0) k)
    refine congrArg (V c main_v64) (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * k.val = k.val; omega
  · show V c main_arg6 (((cfg3.win 1).blk t).view.emb (ix2 k (y 1))) = V c main_arg6 (ix2 k ((((cfg3.win 2).blk t).view.emb y) 1))
    refine congrArg (V c main_arg6) (funext fun a => Fin.ext ?_)
    match a with
    | ⟨0, _⟩ => show win3_1.index t (0 : Fin 2) * 128 + 1 * k.val = k.val; omega
    | ⟨1, _⟩ => show win3_1.index t (1 : Fin 2) * 64 + 1 * (y 1).val = win3_2.index t (1 : Fin 2) * 64 + 1 * (y 1).val; omega

/-- An index of the output array is in point t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- Every index of the output array is in some point's block: row r is in block r / 5000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region: the product of the region's two input arrays. -/
theorem final3 (c : Dev nD) :
    (dat3 (F := Ideal) V c).arrAt 2 cfg3.N = prod3 (V c main_v64) (V c main_arg6) :=
  (dat3 V c).arrAt_eq_of_cover 2 (prod3 (V c main_v64) (V c main_arg6)) (fun t _ => flushed3_eq V c t) cover3

/-- REGION 3's output array at (r, j): ∑ k, x (r, k) · w (k, j), where x and w are the arrays the region finds in its two
    input windows (the hypotheses name them at their literal function types, so that the product is the extended reals'). -/
theorem region3_value (c : Dev nD) (r : Fin 50000) (j : Fin 64) (x : S50000x128.Idx → EReal) (w : S128x64.Idx → EReal)
    (hx : (V c main_v64 : S50000x128.Idx → EReal) = x) (hw : (V c main_arg6 : S128x64.Idx → EReal) = w) :
    ((dat3 (F := Ideal) V c).arrAt 2 cfg3.N : S50000x64.Idx → EReal) (ix2 r j) = ∑ k : Fin 128, x (ix2 r k) * w (ix2 k j) := by
  subst hx hw
  rw [final3]
  rfl

end Cert.KRegion

end
-- ==== Proof.KRegionBN.lean ====
/-
  What the scale-shift-clamp region of the idealized kernel program leaves in its output array, read at an index
  over the extended reals.

  The region walks ten blocks of 5000 rows of a [50000,128] array `h`; at each block it multiplies every row,
  lane by lane, by a [1,128] scale row, adds a [1,128] shift row and takes the maximum with zero. Each block of the
  result is therefore the restriction to that block of ONE function of the three arrays,
      (r, j) ↦ max (h (r, j) · scale (0, j) + shift (0, j)) 0,
  and since row r lies in block r / 5000 the ten blocks cover the array: the output array is that function.
-/
import proofs.«163689_j11029476016716_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KRegion

open Cert.KernelIdeal Cert.KernelIdeal.Gen Idealize.ShloMosaic Idealize.ShloMosaic.ValueIdx
open Idealize.ShloMosaic.TcCoe
open Idealize.ShloMosaic.Pipeline (Dat)

/-- The scale-shift-clamp payload at row `p`, lane `j`: the block's entry times the scale row's lane plus the
    shift row's lane, clamped below at zero. -/
theorem pay2_apply (x0 : Vec Ideal S5000x128 .f32) (x1 x2 : Vec Ideal S1x128 .f32) (p : Fin 5000) (j : Fin 128) :
    (k2_pay1 (F := Ideal) x0 x1 x2 : S5000x128.Idx → EReal) (ix2 p j)
      = max ((x0 : S5000x128.Idx → EReal) (ix2 p j) * (x1 : S1x128.Idx → EReal) (ix2 0 j) + (x2 : S1x128.Idx → EReal) (ix2 0 j)) 0 := by
  unfold k2_pay1
  simp only [shapeCast_self]
  show max (x0 (ix2 p j) * broadcastTo S5000x128 x1 broadcasts_S1x128_S5000x128 (ix2 p j)
      + broadcastTo S5000x128 x2 broadcasts_S1x128_S5000x128 (ix2 p j)) (Ideal.ofBits .f32 0x00000000#32) = _
  rw [broadcastTo_1b_ab_apply, broadcastTo_1b_ab_apply, Ideal.ofBits_zero_f32]

/-! ## From the blocks to the array -/

/-- The zero offsets of a whole-buffer access, as the constant function. -/
theorem hz2 : (![0, 0] : Fin 2 → Nat) = fun _ => 0 := funext fun a => by fin_cases a <;> rfl

/-- The index maps of the four windows, decided over the ten grid points: the row-block windows sit at block
    (t, 0), the two one-row windows at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has ten points. -/
theorem lt_N2 (t : Fin cfg2.N) : t.val < 10 := by
  have h : grid2.N = 10 := N_2
  have := t.isLt
  exact h ▸ this

/-- Row `p` of grid point `t`'s block is row `5000 t + p` of the array. -/
theorem row_lt2 (t : Fin cfg2.N) (p : Fin 5000) : 5000 * t.val + p.val < 50000 := by
  have := lt_N2 t; have := p.isLt; omega

/-- Where an element of a block sits in its array: the row blocks at row 5000 t + p, the one-row blocks at row 0. -/
theorem emb2_0 (t : Fin cfg2.N) (p : Fin 5000) (j : Fin 128) :
    (((cfg2.win 0).blk t).view.emb (ix2 p j) : S50000x128.Idx) = ix2 ⟨5000 * t.val + p.val, row_lt2 t p⟩ j := by
  obtain ⟨e0, e1, -⟩ := idx_facts2 t
  funext a; apply Fin.ext
  match a with
  | ⟨0, _⟩ => show win2_0.index t (0 : Fin 2) * 5000 + 1 * p.val = 5000 * t.val + p.val; omega
  | ⟨1, _⟩ => show win2_0.index t (1 : Fin 2) * 128 + 1 * j.val = j.val; omega

theorem emb2_3 (t : Fin cfg2.N) (p : Fin 5000) (j : Fin 128) :
    (((cfg2.win 3).blk t).view.emb (ix2 p j) : S50000x128.Idx) = ix2 ⟨5000 * t.val + p.val, row_lt2 t p⟩ j := by
  obtain ⟨-, -, -, -, -, -, e6, e7⟩ := idx_facts2 t
  funext a; apply Fin.ext
  match a with
  | ⟨0, _⟩ => show win2_3.index t (0 : Fin 2) * 5000 + 1 * p.val = 5000 * t.val + p.val; omega
  | ⟨1, _⟩ => show win2_3.index t (1 : Fin 2) * 128 + 1 * j.val = j.val; omega

theorem emb2_1 (t : Fin cfg2.N) (u : Fin 1) (j : Fin 128) :
    (((cfg2.win 1).blk t).view.emb (ix2 u j) : S1x128.Idx) = ix2 0 j := by
  obtain ⟨-, -, e2, e3, -⟩ := idx_facts2 t
  funext a; apply Fin.ext
  match a with
  | ⟨0, _⟩ => show win2_1.index t (0 : Fin 2) * 1 + 1 * u.val = 0; omega
  | ⟨1, _⟩ => show win2_1.index t (1 : Fin 2) * 128 + 1 * j.val = j.val; omega

theorem emb2_2 (t : Fin cfg2.N) (u : Fin 1) (j : Fin 128) :
    (((cfg2.win 2).blk t).view.emb (ix2 u j) : S1x128.Idx) = ix2 0 j := by
  obtain ⟨-, -, -, -, e4, e5, -⟩ := idx_facts2 t
  funext a; apply Fin.ext
  match a with
  | ⟨0, _⟩ => show win2_2.index t (0 : Fin 2) * 1 + 1 * u.val = 0; omega
  | ⟨1, _⟩ => show win2_2.index t (1 : Fin 2) * 128 + 1 * j.val = j.val; omega

-- the buffer contents when the region is entered
variable (V : (c : Dev nD) → (b : Ref sig .tc) → Buf (Elt Ideal) ((c : Thread nD τ).loc b))

/-- What the region leaves in its output array, as one function of the three arrays it reads: entry (r, j) of
    the input times lane `j` of the scale row plus lane `j` of the shift row, clamped below at zero. -/
def bnRelu (h : S50000x128.Idx → EReal) (sc sh : S1x128.Idx → EReal) : S50000x128.Idx → EReal :=
  fun i => max (h i * sc (ix2 (0 : Fin 1) (i 1 : Fin 128)) + sh (ix2 (0 : Fin 1) (i 1 : Fin 128))) 0

theorem bnRelu_apply (h : S50000x128.Idx → EReal) (sc sh : S1x128.Idx → EReal) (r : Fin 50000) (j : Fin 128) :
    bnRelu h sc sh (ix2 r j) = max (h (ix2 r j) * sc (ix2 0 j) + sh (ix2 0 j)) 0 := rfl

/-- The three input blocks at a point, read at an index of the block. -/
theorem iblk2_0_apply (c : Dev nD) (t : Fin cfg2.N) (p : Fin 5000) (j : Fin 128) :
    (iblk2 (F := Ideal) V c 0 t : S5000x128.Idx → EReal) (ix2 p j)
      = (V c main_v46 : S50000x128.Idx → EReal) (ix2 ⟨5000 * t.val + p.val, row_lt2 t p⟩ j) := by
  show (V c main_v46 : S50000x128.Idx → EReal) (((cfg2.win 0).blk t).view.emb (ix2 p j)) = _
  rw [emb2_0]

theorem iblk2_1_apply (c : Dev nD) (t : Fin cfg2.N) (u : Fin 1) (j : Fin 128) :
    (iblk2 (F := Ideal) V c 1 t : S1x128.Idx → EReal) (ix2 u j) = (V c main_v62 : S1x128.Idx → EReal) (ix2 0 j) := by
  show (V c main_v62 : S1x128.Idx → EReal) (((cfg2.win 1).blk t).view.emb (ix2 u j)) = _
  rw [emb2_1]

theorem iblk2_2_apply (c : Dev nD) (t : Fin cfg2.N) (u : Fin 1) (j : Fin 128) :
    (iblk2 (F := Ideal) V c 2 t : S1x128.Idx → EReal) (ix2 u j) = (V c main_v63 : S1x128.Idx → EReal) (ix2 0 j) := by
  show (V c main_v63 : S1x128.Idx → EReal) (((cfg2.win 2).blk t).view.emb (ix2 u j)) = _
  rw [emb2_2]

/-- What grid point `t` writes back is block `t` of `bnRelu` of the arrays as the region finds them. -/
theorem flushed2_eq (c : Dev nD) (t : Fin cfg2.N) :
    (dat2 (F := Ideal) V c).flushed 3 t
      = ((cfg2.win 3).blk t).view.read (Elt Ideal) (bnRelu (V c main_v46) (V c main_v62) (V c main_v63)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S1x128) hz2]
  funext y
  obtain ⟨p, j, rfl⟩ : ∃ (p : Fin 5000) (j : Fin 128), y = ix2 p j := ⟨y 0, y 1, eq_ix2 y⟩
  refine (pay2_apply (iblk2 V c 0 t) (iblk2 V c 1 t) (iblk2 V c 2 t) p j).trans ?_
  rw [iblk2_0_apply, iblk2_1_apply, iblk2_2_apply]
  show _ = bnRelu (V c main_v46) (V c main_v62) (V c main_v63) (((cfg2.win 3).blk t).view.emb (ix2 p j))
  rw [emb2_3, bnRelu_apply]

/-- An index of the array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- Row `r` lies in the block of grid point `r / 5000`: the ten blocks of 5000 rows cover the array. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; rw [hN]; omega⟩
  have htv : t.val = (i 0).val / 5000 := rfl
  obtain ⟨-, -, -, -, -, -, e6, e7⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region. -/
theorem final2 (c : Dev nD) :
    (dat2 (F := Ideal) V c).arrAt 3 cfg2.N = bnRelu (V c main_v46) (V c main_v62) (V c main_v63) :=
  (dat2 (F := Ideal) V c).arrAt_eq_of_cover 3 (bnRelu (V c main_v46) (V c main_v62) (V c main_v63))
    (fun t _ => flushed2_eq V c t) cover2

/-- Entry (r, j) of the output array after the region, over the three arrays the region reads (named by the
    caller through the equations `hh`, `hsc`, `hsh`): the input's entry times the scale row's lane plus the
    shift row's lane, clamped below at zero. -/
theorem region2_value (c : Dev nD) (r : Fin 50000) (j : Fin 128)
    (h : S50000x128.Idx → EReal) (sc sh : S1x128.Idx → EReal)
    (hh : (V c main_v46 : S50000x128.Idx → EReal) = h) (hsc : (V c main_v62 : S1x128.Idx → EReal) = sc)
    (hsh : (V c main_v63 : S1x128.Idx → EReal) = sh) :
    ((dat2 (F := Ideal) V c).arrAt 3 cfg2.N : S50000x128.Idx → EReal) (ix2 r j)
      = max (h (ix2 r j) * sc (ix2 0 j) + sh (ix2 0 j)) 0 := by
  subst hh hsc hsh
  rw [final2]
  rfl

end Cert.KRegion

end
-- ==== Proof.KRegionBNStats.lean ====
/-
  What the statistics region of the idealized kernel program leaves in its two output rows, read at an index over
  the extended reals.

  The region walks ten blocks of 5000 rows of a [50000,128] array `h` and carries two [1,128] rows from block to
  block: at the first block both rows are set to zero, and at every block the first row gains, lane by lane, the sum
  of the block's 5000 entries of that lane, the second the sum of their squares. After block t the first row
  therefore holds, at lane j, the sum of h (r, j) over the rows r < 5000 (t + 1) — by induction on t, splitting the
  range of row numbers at 5000 t — and after the last block the sum over all 50000 rows; likewise for the squares.
  Addition of extended reals is commutative and associative, so no finiteness is asked. The rows are written back to
  their arrays once, after the last block, and each row's block is its whole array.
-/
import proofs.«163689_j11029476016716_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal
import Idealize.ShloMosaic.PureOps.Ideal.Laws

noncomputable section

namespace Cert.KRegion

open Cert.KernelIdeal Cert.KernelIdeal.Gen Idealize.ShloMosaic Idealize.ShloMosaic.ValueIdx
open Idealize.ShloMosaic.TcCoe Idealize.ShloMosaic.Tactic
open Idealize.ShloMosaic.Pipeline (Dat)

variable {F : FTy → Type} [FloatOps F]

/-- The zero offsets of a whole-buffer access, as the constant function. -/
theorem hz1 : (![0, 0] : Fin 2 → Nat) = fun _ => 0 := funext fun a => by fin_cases a <;> rfl

/-! ## What each control case leaves in the two accumulators

At a later grid point the body reads the block and the running row, and stores the running row plus the block's
column sums; at the first point it has first stored the zero row, which is what it then reads back. -/

theorem out1_B_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, View.ld_unit_zero (S := S5000x128) hz1,
    View.ld_unit_zero (S := S1x128) hz1]

theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h3.read_unread, View.ld_unit_zero (S := S5000x128) hz1,
    View.ld_unit_zero (S := S1x128) hz1]

theorem out1_A_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz1, View.readCov_unit_zero (S := S1x128) _ hz1]
  simp only [View.readAt_eq_ld, h1.read_unread, View.ld_unit_zero (S := S5000x128) hz1]

theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz1, View.readCov_unit_zero (S := S1x128) _ hz1]
  simp only [View.readAt_eq_ld, h1.read_unread, View.ld_unit_zero (S := S5000x128) hz1]

/-! ## The payloads at an index, over the extended reals -/

/-- The index the column reduction reads at row `q` for lane `j`. -/
theorem lift_col (j : Fin 128) (q : Fin 5000) :
    (reduces_S5000x128_S128.lift (ix1 j) q : S5000x128.Idx) = ix2 q j := by
  funext a
  match a with
  | ⟨0, _⟩ => rfl
  | ⟨1, _⟩ => rfl

/-- The zero rows the first point stores. -/
theorem pay1_apply (i : S1x128.Idx) : (k1_pay1 (F := Ideal) : S1x128.Idx → EReal) i = 0 := by
  unfold k1_pay1
  exact Ideal.ofBits_zero_f32

theorem pay2_zero_apply (i : S1x128.Idx) : (k1_pay2 (F := Ideal) : S1x128.Idx → EReal) i = 0 := by
  unfold k1_pay2
  exact Ideal.ofBits_zero_f32

/-- The first accumulator's new row: the running row plus, lane by lane, the sum of the block's 5000 rows. -/
theorem pay4_apply (x : Vec Ideal S5000x128 .f32) (xo : Vec Ideal S1x128 .f32) (u : Fin 1) (j : Fin 128) :
    (k1_pay4 (F := Ideal) x xo : S1x128.Idx → EReal) (ix2 u j)
      = (xo : S1x128.Idx → EReal) (ix2 u j) + ∑ q : Fin 5000, (x : S5000x128.Idx → EReal) (ix2 q j) := by
  unfold k1_pay4 k1_pay3
  simp only [shapeCast_self]
  show (xo : S1x128.Idx → EReal) (ix2 u j)
      + shapeCast S1x128 (multiReduction (F := Ideal) .add [0] S128 x 0x00000000#32 reduces_S5000x128_S128 (.inl rfl) rfl)
          shapeCasts_S128_S1x128 (ix2 u j) = _
  rw [shapeCast_a_1a_apply]
  refine congrArg _ ((Ideal.multiReduction_add_single x 0x00000000#32 reduces_S5000x128_S128 (.inl rfl) rfl (ix1 j)).trans ?_)
  exact Finset.sum_congr rfl fun q _ => congrArg x (lift_col j q)

/-- The second accumulator's new row: the running row plus, lane by lane, the sum of the squares of the block's rows. -/
theorem pay5_apply (x : Vec Ideal S5000x128 .f32) (xo : Vec Ideal S1x128 .f32) (u : Fin 1) (j : Fin 128) :
    (k1_pay5 (F := Ideal) x xo : S1x128.Idx → EReal) (ix2 u j)
      = (xo : S1x128.Idx → EReal) (ix2 u j)
        + ∑ q : Fin 5000, (x : S5000x128.Idx → EReal) (ix2 q j) * (x : S5000x128.Idx → EReal) (ix2 q j) := by
  unfold k1_pay5 k1_pay3
  simp only [shapeCast_self]
  show (xo : S1x128.Idx → EReal) (ix2 u j)
      + shapeCast S1x128 (multiReduction (F := Ideal) .add [0] S128 (mulf x x) 0x00000000#32 reduces_S5000x128_S128 (.inl rfl) rfl)
          shapeCasts_S128_S1x128 (ix2 u j) = _
  rw [shapeCast_a_1a_apply]
  refine congrArg _ ((Ideal.multiReduction_add_single (mulf x x) 0x00000000#32 reduces_S5000x128_S128 (.inl rfl) rfl (ix1 j)).trans ?_)
  exact Finset.sum_congr rfl fun q _ => congrArg (fun i => x i * x i) (lift_col j q)

/-! ## The blocks of the statistics region -/

/-- The index maps of the three windows, decided over the ten grid points: the row-block window sits at block
    (t, 0), the two accumulator windows at block (0, 0) at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The grid has ten points. -/
theorem lt_N1 (t : Fin cfg1.N) : t.val < 10 := by
  have h : grid1.N = 10 := N_1
  have := t.isLt
  exact h ▸ this

/-- Row `p` of grid point `t`'s block is row `5000 t + p` of the array. -/
theorem row_lt1 (t : Fin cfg1.N) (p : Fin 5000) : 5000 * t.val + p.val < 50000 := by
  have := lt_N1 t; have := p.isLt; omega

theorem emb1_0 (t : Fin cfg1.N) (p : Fin 5000) (j : Fin 128) :
    (((cfg1.win 0).blk t).view.emb (ix2 p j) : S50000x128.Idx) = ix2 ⟨5000 * t.val + p.val, row_lt1 t p⟩ j := by
  obtain ⟨e0, e1, -⟩ := idx_facts1 t
  funext a; apply Fin.ext
  match a with
  | ⟨0, _⟩ => show win1_0.index t (0 : Fin 2) * 5000 + 1 * p.val = 5000 * t.val + p.val; omega
  | ⟨1, _⟩ => show win1_0.index t (1 : Fin 2) * 128 + 1 * j.val = j.val; omega

theorem emb1_1 (t : Fin cfg1.N) (u : Fin 1) (j : Fin 128) :
    (((cfg1.win 1).blk t).view.emb (ix2 u j) : S1x128.Idx) = ix2 0 j := by
  obtain ⟨-, -, e2, e3, -⟩ := idx_facts1 t
  funext a; apply Fin.ext
  match a with
  | ⟨0, _⟩ => show win1_1.index t (0 : Fin 2) * 1 + 1 * u.val = 0; omega
  | ⟨1, _⟩ => show win1_1.index t (1 : Fin 2) * 128 + 1 * j.val = j.val; omega

theorem emb1_2 (t : Fin cfg1.N) (u : Fin 1) (j : Fin 128) :
    (((cfg1.win 2).blk t).view.emb (ix2 u j) : S1x128.Idx) = ix2 0 j := by
  obtain ⟨-, -, -, -, e4, e5⟩ := idx_facts1 t
  funext a; apply Fin.ext
  match a with
  | ⟨0, _⟩ => show win1_2.index t (0 : Fin 2) * 1 + 1 * u.val = 0; omega
  | ⟨1, _⟩ => show win1_2.index t (1 : Fin 2) * 128 + 1 * j.val = j.val; omega

/-- A sum over the first 5000 (n + 1) row numbers is the sum over the first 5000 n plus the next block's. -/
theorem range_block (f : ℕ → EReal) (n : ℕ) :
    ∑ m ∈ Finset.range (5000 * n), f m + ∑ q ∈ Finset.range 5000, f (5000 * n + q)
      = ∑ m ∈ Finset.range (5000 * (n + 1)), f m := by
  rw [show 5000 * (n + 1) = 5000 * n + 5000 from by omega, Finset.sum_range_add]

-- the buffer contents when the region is entered
variable (V : (c : Dev nD) → (b : Ref sig .tc) → Buf (Elt Ideal) ((c : Thread nD τ).loc b))

/-- The input block at a point, read at an index of the block. -/
theorem iblk1_0_apply (c : Dev nD) (t : Fin cfg1.N) (p : Fin 5000) (j : Fin 128) :
    (iblk1 (F := Ideal) V c 0 t : S5000x128.Idx → EReal) (ix2 p j)
      = (V c main_v46 : S50000x128.Idx → EReal) (ix2 ⟨5000 * t.val + p.val, row_lt1 t p⟩ j) := by
  show (V c main_v46 : S50000x128.Idx → EReal) (((cfg1.win 0).blk t).view.emb (ix2 p j)) = _
  rw [emb1_0]

/-! ## The first accumulator: the column sums -/

/-- Entry (n, j) of the array as a function of the row NUMBER, zero past the last row: the addend of a sum over row numbers. -/
def rowAt (h : S50000x128.Idx → EReal) (j : Fin 128) (n : ℕ) : EReal :=
  if hn : n < 50000 then h (ix2 ⟨n, hn⟩ j) else 0

/-- The block's contribution at grid point `t`, as a sum over the block's row numbers. -/
theorem blockSum (c : Dev nD) (h : S50000x128.Idx → EReal) (hh : (V c main_v46 : S50000x128.Idx → EReal) = h)
    (t : Fin cfg1.N) (j : Fin 128) (x : S5000x128.Idx → EReal) (hx : (iblk1 (F := Ideal) V c 0 t : S5000x128.Idx → EReal) = x) :
    ∑ q : Fin 5000, x (ix2 q j)
      = ∑ q ∈ Finset.range 5000, rowAt h j (5000 * t.val + q) := by
  subst hh hx
  rw [← Fin.sum_univ_eq_sum_range (fun q => rowAt (V c main_v46) j (5000 * t.val + q)) 5000]
  refine Finset.sum_congr rfl fun q _ => ?_
  rw [iblk1_0_apply]
  unfold rowAt
  rw [dif_pos (row_lt1 t q)]

/-- After grid point `n` the accumulator holds, lane by lane, the sum over the rows of the blocks walked so far:
    by induction on the point, the first point starting from the zero row. -/
theorem outsAt1_fst (c : Dev nD) (h : S50000x128.Idx → EReal) (hh : (V c main_v46 : S50000x128.Idx → EReal) = h) :
    ∀ (n : ℕ) (hn : n < cfg1.N) (u : Fin 1) (j : Fin 128),
      ((outsAt1 (F := Ideal) V c n hn).1 : S1x128.Idx → EReal) (ix2 u j)
        = ∑ m ∈ Finset.range (5000 * (n + 1)), rowAt h j m
  | 0, hn, u, j => by
    refine (congrFun (congrArg Prod.fst (outsAt1_A (F := Ideal) V c ⟨0, hn⟩ rfl)) (ix2 u j)).trans ?_
    dsimp only
    refine (congrFun (out1_A_1_eq (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((hcond1_0 ⟨0, hn⟩).mpr rfl) (iblk1 V c 0 ⟨0, hn⟩)) (ix2 u j)).trans ?_
    refine (pay4_apply (iblk1 V c 0 ⟨0, hn⟩) (k1_pay1 (F := Ideal)) u j).trans ?_
    rw [pay1_apply, zero_add, blockSum V c h hh ⟨0, hn⟩ j (iblk1 V c 0 ⟨0, hn⟩) rfl]
    exact (zero_add _).symm.trans ((congrArg (· + _) (Finset.sum_range_zero _).symm).trans (range_block (rowAt h j) 0))
  | n + 1, hn, u, j => by
    have hN : cfg1.N = 10 := N_1
    have hB : ¬(⟨n + 1, hn⟩ : Fin cfg1.N).val % 10 = 0 := by dsimp only; omega
    refine (congrFun (congrArg Prod.fst (outsAt1_B (F := Ideal) V c ⟨n + 1, hn⟩ hB)) (ix2 u j)).trans ?_
    dsimp only
    refine (congrFun (out1_B_1_eq (F := Ideal) c (grid1.coords ⟨n + 1, hn⟩) (ms1_0 ⟨n + 1, hn⟩) (hs1_0 ⟨n + 1, hn⟩) (ms1_1 ⟨n + 1, hn⟩)
      (hs1_1 ⟨n + 1, hn⟩) (ms1_2 ⟨n + 1, hn⟩) (hs1_2 ⟨n + 1, hn⟩) (fun hc => hB ((hcond1_0 ⟨n + 1, hn⟩).mp hc)) (iblk1 V c 0 ⟨n + 1, hn⟩)
      (outsAt1 V c n (Nat.lt_of_succ_lt hn)).1 (outsAt1 V c n (Nat.lt_of_succ_lt hn)).2) (ix2 u j)).trans ?_
    refine (pay4_apply (iblk1 V c 0 ⟨n + 1, hn⟩) (outsAt1 V c n (Nat.lt_of_succ_lt hn)).1 u j).trans ?_
    rw [outsAt1_fst c h hh n (Nat.lt_of_succ_lt hn) u j, blockSum V c h hh ⟨n + 1, hn⟩ j (iblk1 V c 0 ⟨n + 1, hn⟩) rfl]
    exact range_block (rowAt h j) (n + 1)

/-- The whole array the accumulator ends as: lane `j` holds the sum over all 50000 row numbers. -/
def colSums (h : S50000x128.Idx → EReal) : S1x128.Idx → EReal :=
  fun i => ∑ m ∈ Finset.range 50000, rowAt h (i 1 : Fin 128) m

theorem colSums_apply (h : S50000x128.Idx → EReal) (u : Fin 1) (j : Fin 128) :
    colSums h (ix2 u j) = ∑ m ∈ Finset.range 50000, rowAt h j m := rfl

/-- The accumulator's block at any point, read at an index, is its array's row 0 there. -/
theorem read_blk1_1 (t : Fin cfg1.N) (G : S1x128.Idx → EReal) (u : Fin 1) (j : Fin 128) :
    (((cfg1.win 1).blk t).view.read (Elt Ideal) G : S1x128.Idx → EReal) (ix2 u j) = G (ix2 0 j) := by
  show G (((cfg1.win 1).blk t).view.emb (ix2 u j)) = _
  rw [emb1_1]

/-- The one write-back, after the last point, writes that row: the accumulator's block is its whole array. -/
theorem flushed1_1_eq (c : Dev nD) (h : S50000x128.Idx → EReal) (hh : (V c main_v46 : S50000x128.Idx → EReal) = h)
    (t : Fin cfg1.N) (hf : (cfg1.win 1).flush t = true) :
    (dat1 (F := Ideal) V c).flushed 1 t = ((cfg1.win 1).blk t).view.read (Elt Ideal) (colSums h) := by
  have h9 : t.val = 9 := by have := (flush1_1 t).mp hf; have := lt_N1 t; omega
  show (cfg1.win 1).cut (grid1.coords t) ((dat1 V c).after 1 t) = _
  rw [after1_1]
  funext y
  obtain ⟨u, j, rfl⟩ : ∃ (u : Fin 1) (j : Fin 128), y = ix2 u j := ⟨y 0, y 1, eq_ix2 y⟩
  have h9' : 5000 * (t.val + 1) = 50000 := by omega
  refine (outsAt1_fst V c h hh t.val t.isLt u j).trans ?_
  refine Eq.trans ?_ (read_blk1_1 t (colSums h) u j).symm
  rw [colSums_apply, h9']

/-- An index of the accumulator's array is in a point's block iff each coordinate is in the block's range. -/
theorem mem_blk1_1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v47_0).slice (win1_1.rect t)).set ↔ _
  rw [View.set_slice_whole, Rect.mem_set_unit]
  exact Iff.rfl

/-- The last point's block covers the accumulator's array. -/
theorem cover1_1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  have hN : grid1.N = 10 := N_1
  let t : Fin cfg1.N := ⟨9, by show 9 < grid1.N; rw [hN]; omega⟩
  obtain ⟨-, -, e2, e3, e4, e5⟩ := idx_facts1 t
  refine ⟨t, (flush1_1 t).mpr rfl, ?_⟩
  rw [mem_blk1_1]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 128 ≤ (i 1).val ∧ (i 1).val < win1_1.index t (1 : Fin 2) * 128 + 128; omega

/-- The accumulator's array after the region. -/
theorem final1_1 (c : Dev nD) (h : S50000x128.Idx → EReal) (hh : (V c main_v46 : S50000x128.Idx → EReal) = h) :
    (dat1 (F := Ideal) V c).arrAt 1 cfg1.N = colSums h :=
  (dat1 (F := Ideal) V c).arrAt_eq_of_cover 1 (colSums h) (flushed1_1_eq V c h hh) cover1_1

/-- Lane `j` of the first statistics row after the region: the sum over all 50000 rows of the input's lane `j` (the array named by the caller through `hh`). -/
theorem region1_sum (c : Dev nD) (j : Fin 128) (h : S50000x128.Idx → EReal)
    (hh : (V c main_v46 : S50000x128.Idx → EReal) = h) :
    ((dat1 (F := Ideal) V c).arrAt 1 cfg1.N : S1x128.Idx → EReal) (ix2 0 j)
      = (∑ r : Fin 50000, h (ix2 r j) : EReal) := by
  show @Eq EReal _ _
  rw [final1_1 V c h hh, colSums_apply]
  rw [← Fin.sum_univ_eq_sum_range (fun m => rowAt h j m) 50000]
  refine Finset.sum_congr rfl fun r _ => ?_
  unfold rowAt
  rw [dif_pos r.isLt]

/-! ## The second accumulator: the column sums of squares -/

/-- The square of entry (n, j) as a function of the row NUMBER, zero past the last row. -/
def sqAt (h : S50000x128.Idx → EReal) (j : Fin 128) (n : ℕ) : EReal :=
  if hn : n < 50000 then h (ix2 ⟨n, hn⟩ j) * h (ix2 ⟨n, hn⟩ j) else 0

/-- The block's contribution at grid point `t`, as a sum over the block's row numbers. -/
theorem blockSumSq (c : Dev nD) (h : S50000x128.Idx → EReal) (hh : (V c main_v46 : S50000x128.Idx → EReal) = h)
    (t : Fin cfg1.N) (j : Fin 128) (x : S5000x128.Idx → EReal) (hx : (iblk1 (F := Ideal) V c 0 t : S5000x128.Idx → EReal) = x) :
    ∑ q : Fin 5000, x (ix2 q j) * x (ix2 q j)
      = ∑ q ∈ Finset.range 5000, sqAt h j (5000 * t.val + q) := by
  subst hh hx
  rw [← Fin.sum_univ_eq_sum_range (fun q => sqAt (V c main_v46) j (5000 * t.val + q)) 5000]
  refine Finset.sum_congr rfl fun q _ => ?_
  rw [iblk1_0_apply]
  unfold sqAt
  rw [dif_pos (row_lt1 t q)]

/-- After grid point `n` the accumulator holds, lane by lane, the sum over the rows of the blocks walked so far:
    by induction on the point, the first point starting from the zero row. -/
theorem outsAt1_snd (c : Dev nD) (h : S50000x128.Idx → EReal) (hh : (V c main_v46 : S50000x128.Idx → EReal) = h) :
    ∀ (n : ℕ) (hn : n < cfg1.N) (u : Fin 1) (j : Fin 128),
      ((outsAt1 (F := Ideal) V c n hn).2 : S1x128.Idx → EReal) (ix2 u j)
        = ∑ m ∈ Finset.range (5000 * (n + 1)), sqAt h j m
  | 0, hn, u, j => by
    refine (congrFun (congrArg Prod.snd (outsAt1_A (F := Ideal) V c ⟨0, hn⟩ rfl)) (ix2 u j)).trans ?_
    dsimp only
    refine (congrFun (out1_A_2_eq (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((hcond1_0 ⟨0, hn⟩).mpr rfl) (iblk1 V c 0 ⟨0, hn⟩)) (ix2 u j)).trans ?_
    refine (pay5_apply (iblk1 V c 0 ⟨0, hn⟩) (k1_pay2 (F := Ideal)) u j).trans ?_
    rw [pay2_zero_apply, zero_add, blockSumSq V c h hh ⟨0, hn⟩ j (iblk1 V c 0 ⟨0, hn⟩) rfl]
    exact (zero_add _).symm.trans ((congrArg (· + _) (Finset.sum_range_zero _).symm).trans (range_block (sqAt h j) 0))
  | n + 1, hn, u, j => by
    have hN : cfg1.N = 10 := N_1
    have hB : ¬(⟨n + 1, hn⟩ : Fin cfg1.N).val % 10 = 0 := by dsimp only; omega
    refine (congrFun (congrArg Prod.snd (outsAt1_B (F := Ideal) V c ⟨n + 1, hn⟩ hB)) (ix2 u j)).trans ?_
    dsimp only
    refine (congrFun (out1_B_2_eq (F := Ideal) c (grid1.coords ⟨n + 1, hn⟩) (ms1_0 ⟨n + 1, hn⟩) (hs1_0 ⟨n + 1, hn⟩) (ms1_1 ⟨n + 1, hn⟩)
      (hs1_1 ⟨n + 1, hn⟩) (ms1_2 ⟨n + 1, hn⟩) (hs1_2 ⟨n + 1, hn⟩) (fun hc => hB ((hcond1_0 ⟨n + 1, hn⟩).mp hc)) (iblk1 V c 0 ⟨n + 1, hn⟩)
      (outsAt1 V c n (Nat.lt_of_succ_lt hn)).1 (outsAt1 V c n (Nat.lt_of_succ_lt hn)).2) (ix2 u j)).trans ?_
    refine (pay5_apply (iblk1 V c 0 ⟨n + 1, hn⟩) (outsAt1 V c n (Nat.lt_of_succ_lt hn)).2 u j).trans ?_
    rw [outsAt1_snd c h hh n (Nat.lt_of_succ_lt hn) u j, blockSumSq V c h hh ⟨n + 1, hn⟩ j (iblk1 V c 0 ⟨n + 1, hn⟩) rfl]
    exact range_block (sqAt h j) (n + 1)

/-- The whole array the accumulator ends as: lane `j` holds the sum over all 50000 row numbers. -/
def colSumSqs (h : S50000x128.Idx → EReal) : S1x128.Idx → EReal :=
  fun i => ∑ m ∈ Finset.range 50000, sqAt h (i 1 : Fin 128) m

theorem colSumSqs_apply (h : S50000x128.Idx → EReal) (u : Fin 1) (j : Fin 128) :
    colSumSqs h (ix2 u j) = ∑ m ∈ Finset.range 50000, sqAt h j m := rfl

/-- The accumulator's block at any point, read at an index, is its array's row 0 there. -/
theorem read_blk1_2 (t : Fin cfg1.N) (G : S1x128.Idx → EReal) (u : Fin 1) (j : Fin 128) :
    (((cfg1.win 2).blk t).view.read (Elt Ideal) G : S1x128.Idx → EReal) (ix2 u j) = G (ix2 0 j) := by
  show G (((cfg1.win 2).blk t).view.emb (ix2 u j)) = _
  rw [emb1_2]

/-- The one write-back, after the last point, writes that row: the accumulator's block is its whole array. -/
theorem flushed1_2_eq (c : Dev nD) (h : S50000x128.Idx → EReal) (hh : (V c main_v46 : S50000x128.Idx → EReal) = h)
    (t : Fin cfg1.N) (hf : (cfg1.win 2).flush t = true) :
    (dat1 (F := Ideal) V c).flushed 2 t = ((cfg1.win 2).blk t).view.read (Elt Ideal) (colSumSqs h) := by
  have h9 : t.val = 9 := by have := (flush1_2 t).mp hf; have := lt_N1 t; omega
  show (cfg1.win 2).cut (grid1.coords t) ((dat1 V c).after 2 t) = _
  rw [after1_2]
  funext y
  obtain ⟨u, j, rfl⟩ : ∃ (u : Fin 1) (j : Fin 128), y = ix2 u j := ⟨y 0, y 1, eq_ix2 y⟩
  have h9' : 5000 * (t.val + 1) = 50000 := by omega
  refine (outsAt1_snd V c h hh t.val t.isLt u j).trans ?_
  refine Eq.trans ?_ (read_blk1_2 t (colSumSqs h) u j).symm
  rw [colSumSqs_apply, h9']

/-- An index of the accumulator's array is in a point's block iff each coordinate is in the block's range. -/
theorem mem_blk1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v47_1).slice (win1_2.rect t)).set ↔ _
  rw [View.set_slice_whole, Rect.mem_set_unit]
  exact Iff.rfl

/-- The last point's block covers the accumulator's array. -/
theorem cover1_2 (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  have hN : grid1.N = 10 := N_1
  let t : Fin cfg1.N := ⟨9, by show 9 < grid1.N; rw [hN]; omega⟩
  obtain ⟨-, -, e2, e3, e4, e5⟩ := idx_facts1 t
  refine ⟨t, (flush1_2 t).mpr rfl, ?_⟩
  rw [mem_blk1_2]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 128 ≤ (i 1).val ∧ (i 1).val < win1_2.index t (1 : Fin 2) * 128 + 128; omega

/-- The accumulator's array after the region. -/
theorem final1_2 (c : Dev nD) (h : S50000x128.Idx → EReal) (hh : (V c main_v46 : S50000x128.Idx → EReal) = h) :
    (dat1 (F := Ideal) V c).arrAt 2 cfg1.N = colSumSqs h :=
  (dat1 (F := Ideal) V c).arrAt_eq_of_cover 2 (colSumSqs h) (flushed1_2_eq V c h hh) cover1_2

/-- Lane `j` of the second statistics row after the region: the sum over all 50000 rows of the square of the input's lane `j`. -/
theorem region1_sumsq (c : Dev nD) (j : Fin 128) (h : S50000x128.Idx → EReal)
    (hh : (V c main_v46 : S50000x128.Idx → EReal) = h) :
    ((dat1 (F := Ideal) V c).arrAt 2 cfg1.N : S1x128.Idx → EReal) (ix2 0 j)
      = (∑ r : Fin 50000, h (ix2 r j) * h (ix2 r j) : EReal) := by
  show @Eq EReal _ _
  rw [final1_2 V c h hh, colSumSqs_apply]
  rw [← Fin.sum_univ_eq_sum_range (fun m => sqAt h j m) 50000]
  refine Finset.sum_congr rfl fun r _ => ?_
  unfold sqAt
  rw [dif_pos r.isLt]

end Cert.KRegion

end
-- ==== Proof.RChain.lean ====
/-
  The graph-convolution pipeline's host arithmetic, stage by stage, as pure functions of arrays.

  An edge list `ei : [2, 1600000]` of node numbers gives, after the self loops 0 … 49999 are appended, a source and a
  destination endpoint for each of 1650000 edges.  The degree of node `i` counts the edges whose destination is `i`;
  `dinv i` is `deg i ^ (-1/2)` where the degree is positive and 0 elsewhere; the weight of edge `e` is
  `dinv (src e) * dinv (dst e)`.  One convolution of a feature matrix `h` gathers row `src e` of `h` for every edge,
  scales it by the edge's weight, adds the scaled rows into row `dst e` of a zero matrix, and adds the bias row.
-/
import proofs.«163689_j11029476016716_1_alg».proof.ReferenceIdeal

noncomputable section

namespace Cert.RChain

open Idealize.ShloMosaic Cert.ReferenceIdeal

variable {F : FTy → Type} [FloatOps F] [Facts₀]
open Facts₀

/-- Row `r` of the edge list as a vector of 1600000 node numbers. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- The source endpoint of every edge: row 0 of the edge list, then the self loops 0 … 49999. -/
def srcOf (ei : IVec S2x1600000 32) : IVec S1650000 32 :=
  concatenate S1650000 0 [⟨S1600000, edgeRow0 ei⟩, ⟨S50000, iotaInDim S50000 32 0⟩] concatenates_S1600000_S50000_S1650000_d0
/-- The destination endpoint of every edge: row 1 of the edge list, then the self loops. -/
def dstOf (ei : IVec S2x1600000 32) : IVec S1650000 32 :=
  concatenate S1650000 0 [⟨S1600000, edgeRow1 ei⟩, ⟨S50000, iotaInDim S50000 32 0⟩] concatenates_S1600000_S50000_S1650000_d0

/-- A node number read the way an array index is: a negative one counts from the end. -/
def wrapIdx (v : IVec S1650000 32) : IVec S1650000x1 32 :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- The degree of every node: the number of edges that end there. -/
def degOf (dst : IVec S1650000 32) : FVec F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))

/-- `deg ^ (-1/2)` where the degree is positive, 0 elsewhere. -/
def dinvOf (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))

/-- The weight of every edge: `dinv` at its source times `dinv` at its destination. -/
def normOf (src dst : IVec S1650000 32) : FVec F S1650000 .f32 :=
  mulf (Host.gather gather_S50000_S1650000x1_S1650000_n_0_n_n_0_1_1 (dinvOf (F := F) (degOf dst)) (wrapIdx src))
    (Host.gather gather_S50000_S1650000x1_S1650000_n_0_n_n_0_1_1 (dinvOf (F := F) (degOf dst)) (wrapIdx dst))

/-- One convolution of a 128-lane feature matrix. -/
def conv128 (src dst : IVec S1650000 32) (nrm : FVec F S1650000 .f32) (h : FVec F S50000x128 .f32) (b : FVec F S128 .f32) :
    FVec F S50000x128 .f32 :=
  addf
    (Host.scatterAdd scatter_S50000x128_S1650000x1_S1650000x128_1_0_0_1
      (broadcastInDim S50000x128 ![] bcast_S_S50000x128 (constant S_ .f32 0x00000000#32))
      (broadcastInDim S1650000x1 ![0] bcast_S1650000_S1650000x1_0 dst)
      (mulf (Host.gather gather_S50000x128_S1650000x1_S1650000x128_1_0_n_n_0_1_1128 h (wrapIdx src))
        (broadcastInDim S1650000x128 ![0, 1] bcast_S1650000x1_S1650000x128_0_1
          (broadcastInDim S1650000x1 ![0] bcast_S1650000_S1650000x1_0 nrm))))
    (broadcastInDim S50000x128 ![0, 1] bcast_S1x128_S50000x128_0_1 (broadcastInDim S1x128 ![1] bcast_S128_S1x128_1 b))

/-- One convolution of a 64-lane feature matrix. -/
def conv64 (src dst : IVec S1650000 32) (nrm : FVec F S1650000 .f32) (h : FVec F S50000x64 .f32) (b : FVec F S64 .f32) :
    FVec F S50000x64 .f32 :=
  addf
    (Host.scatterAdd scatter_S50000x64_S1650000x1_S1650000x64_1_0_0_1
      (broadcastInDim S50000x64 ![] bcast_S_S50000x64 (constant S_ .f32 0x00000000#32))
      (broadcastInDim S1650000x1 ![0] bcast_S1650000_S1650000x1_0 dst)
      (mulf (Host.gather gather_S50000x64_S1650000x1_S1650000x64_1_0_n_n_0_1_164 h (wrapIdx src))
        (broadcastInDim S1650000x64 ![0, 1] bcast_S1650000x1_S1650000x64_0_1
          (broadcastInDim S1650000x1 ![0] bcast_S1650000_S1650000x1_0 nrm))))
    (broadcastInDim S50000x64 ![0, 1] bcast_S1x64_S50000x64_0_1 (broadcastInDim S1x64 ![1] bcast_S64_S1x64_1 b))

end Cert.RChain

end
-- ==== Proof.RBn.lean ====
/-
  The reference's batch normalisation of a [50000, 128] matrix `h`, column by column, followed by the ramp
  `max(·, 0)`, as pure functions of arrays: the mean of a column is its sum divided by 50000; its variance is the
  sum of the squared deviations from the mean divided by `50000 - 0` (the second term the number of degrees of
  freedom removed, here none), selected against a not-a-number when that divisor is not positive; the normalised
  entry is `(h - mean) * (variance + 1e-5)^(-1/2) * g + be`.
-/
import proofs.«163689_j11029476016716_1_alg».proof.ReferenceIdeal

noncomputable section

namespace Cert.RBn

open Idealize.ShloMosaic Cert.ReferenceIdeal

variable {F : FTy → Type} [FloatOps F] [Facts₀]
open Facts₀

/-- The plain matrix products of the two layers. -/
def dot1 (x : FVec F S50000x64 .f32) (w : FVec F S64x128 .f32) : FVec F S50000x128 .f32 :=
  Host.dotGeneral dot_S50000x64_S64x128_S50000x128_1_0_0_1_n_n none x w
def dot2 (h : FVec F S50000x128 .f32) (w : FVec F S128x64 .f32) : FVec F S50000x64 .f32 :=
  Host.dotGeneral dot_S50000x128_S128x64_S50000x64_1_0_0_1_n_n none h w

/-- The column sums. -/
def colSum (h : FVec F S50000x128 .f32) : FVec F S128 .f32 :=
  Host.reduceAdd h (constant S_ .f32 0x00000000#32) reducesTo_S50000x128_S128_d0 h_S_

/-- The column means. -/
def meanOf (h : FVec F S50000x128 .f32) : FVec F S128 .f32 :=
  Host.divf (colSum h) (broadcastInDim S128 ![] bcast_S_S128 (constant S_ .f32 0x47435000#32))

/-- The deviations from the column means, the means computed with the row axis kept. -/
def centered (h : FVec F S50000x128 .f32) : FVec F S50000x128 .f32 :=
  subf h (broadcastInDim S50000x128 ![0, 1] bcast_S1x128_S50000x128_0_1
    (Host.divf (broadcastInDim S1x128 ![1] bcast_S128_S1x128_1 (colSum h))
      (broadcastInDim S1x128 ![] bcast_S_S1x128 (constant S_ .f32 0x47435000#32))))

/-- The divisor of the variance: 50000 less the degrees of freedom removed. -/
def varDen : FVec F S_ .f32 :=
  subf (constant S_ .f32 0x47435000#32) (sitofp .f32 (constantI S_ 32 0#32))

/-- The column variances. -/
def varOf (h : FVec F S50000x128 .f32) : FVec F S128 .f32 :=
  select (broadcastInDim S128 ![] bcast_S_S128 (cmpf .ogt (varDen (F := F)) (constant S_ .f32 0x00000000#32)))
    (Host.divf (colSum (mulf (centered h) (centered h))) (broadcastInDim S128 ![] bcast_S_S128 (varDen (F := F))))
    (broadcastInDim S128 ![] bcast_S_S128 (id (constant S_ .f32 0x7FC00000#32)))

/-- Normalise, scale by `g`, shift by `be`, and take the ramp. -/
def bnRelu (h : FVec F S50000x128 .f32) (g be : FVec F S128 .f32) : FVec F S50000x128 .f32 :=
  maximumf
    (addf
      (mulf
        (mulf
          (subf h (broadcastInDim S50000x128 ![0, 1] bcast_S1x128_S50000x128_0_1 (broadcastInDim S1x128 ![1] bcast_S128_S1x128_1 (meanOf h))))
          (broadcastInDim S50000x128 ![0, 1] bcast_S1x128_S50000x128_0_1 (broadcastInDim S1x128 ![1] bcast_S128_S1x128_1
            (Host.rsqrt (addf (varOf h) (broadcastInDim S128 ![] bcast_S_S128 (constant S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 be)))
    (broadcastInDim S50000x128 ![] bcast_S_S50000x128 (constant S_ .f32 0x00000000#32))

end Cert.RBn

end
-- ==== Proof.RefRunA.lean ====
/-
  The first window of the reference program (statements 1 … 60 of @main): the edge endpoints with the self loops
  appended, the degrees and the edge weights, the first layer's matrix product and its graph convolution, and the
  column sums of the result; as a list of operations, the call of the selection helper written out at its place, and
  what the buffers read later hold after them.
-/
import proofs.«163689_j11029476016716_1_alg».proof.Proof.Gen.ReferenceIdeal
import proofs.«163689_j11029476016716_1_alg».proof.Proof.RChain
import proofs.«163689_j11029476016716_1_alg».proof.Proof.RBn
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 62 (window `main_part0`), the three operations of the helper that selects `deg^(-1/2)`
    against zero written out over the call's own buffers. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S50000 32 0),
    binary main_v1 main_v4 main_v5 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v4 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2) main_call0.v0 id,
    TRef.unary main_call0.v0 main_call0.v1 (broadcastInDim S50000 ![] bcast_S_S50000),
    TRef.ternary (.of main_v12) (.of main_v13) main_call0.v1 main_call0.v2 select,
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v5 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v5 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v5 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)),
    binary main_arg0 main_arg2 main_v30 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v5 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v5 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v5 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v46 main_cst_9 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

set_option maxRecDepth 8192 in
set_option maxHeartbeats 4000000 in
/-- The window is that straight line of operations, the helper's three in the place of its call. -/
theorem main_part0_eq (c : Dev nD) : main_part0 (F := F) c = seq opsA := by
  simp only [main_part0, fn_where.body, seq, bind_assoc, pure_bind]
  rfl

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub ..⟩

set_option maxRecDepth 8192 in
set_option maxHeartbeats 6200000 in
/-- After the window the first layer's buffer holds the 128-lane convolution of the product of the features with the
    first weight matrix, over the endpoints and weights computed from the edge list. -/
theorem A_v46 (V : Valuation τ sig (Elt F)) :
    after opsA V (main_v46 : DevRef τ sig)
      = (Cert.RChain.conv128 (Cert.RChain.srcOf (V (main_arg1 : DevRef τ sig))) (Cert.RChain.dstOf (V (main_arg1 : DevRef τ sig))) (Cert.RChain.normOf (Cert.RChain.srcOf (V (main_arg1 : DevRef τ sig))) (Cert.RChain.dstOf (V (main_arg1 : DevRef τ sig))))
          (Cert.RBn.dot1 (V (main_arg0 : DevRef τ sig)) (V (main_arg2 : DevRef τ sig))) (V (main_arg3 : DevRef τ sig))) := by
  after_results_simp
  rfl

set_option maxRecDepth 8192 in
set_option maxHeartbeats 6200000 in
/-- … and the next buffer its column sums. -/
theorem A_v47 (V : Valuation τ sig (Elt F)) :
    after opsA V (main_v47 : DevRef τ sig)
      = Cert.RBn.colSum (Cert.RChain.conv128 (Cert.RChain.srcOf (V (main_arg1 : DevRef τ sig))) (Cert.RChain.dstOf (V (main_arg1 : DevRef τ sig))) (Cert.RChain.normOf (Cert.RChain.srcOf (V (main_arg1 : DevRef τ sig))) (Cert.RChain.dstOf (V (main_arg1 : DevRef τ sig))))
          (Cert.RBn.dot1 (V (main_arg0 : DevRef τ sig)) (V (main_arg2 : DevRef τ sig))) (V (main_arg3 : DevRef τ sig))) := by
  after_results_simp
  rfl

theorem A_arg0 (V : Valuation τ sig (Elt F)) : after opsA V (main_arg0 : DevRef τ sig) = V (main_arg0 : DevRef τ sig) := by
  after_results_simp
theorem A_arg1 (V : Valuation τ sig (Elt F)) : after opsA V (main_arg1 : DevRef τ sig) = V (main_arg1 : DevRef τ sig) := by
  after_results_simp
theorem A_arg2 (V : Valuation τ sig (Elt F)) : after opsA V (main_arg2 : DevRef τ sig) = V (main_arg2 : DevRef τ sig) := by
  after_results_simp
theorem A_arg3 (V : Valuation τ sig (Elt F)) : after opsA V (main_arg3 : DevRef τ sig) = V (main_arg3 : DevRef τ sig) := by
  after_results_simp
theorem A_arg4 (V : Valuation τ sig (Elt F)) : after opsA V (main_arg4 : DevRef τ sig) = V (main_arg4 : DevRef τ sig) := by
  after_results_simp
theorem A_arg5 (V : Valuation τ sig (Elt F)) : after opsA V (main_arg5 : DevRef τ sig) = V (main_arg5 : DevRef τ sig) := by
  after_results_simp
theorem A_arg6 (V : Valuation τ sig (Elt F)) : after opsA V (main_arg6 : DevRef τ sig) = V (main_arg6 : DevRef τ sig) := by
  after_results_simp
theorem A_arg7 (V : Valuation τ sig (Elt F)) : after opsA V (main_arg7 : DevRef τ sig) = V (main_arg7 : DevRef τ sig) := by
  after_results_simp

end Cert.RefRun

end
-- ==== Proof.RefRunB.lean ====
/-
  The middle window of the reference program (statements 61 … 120 of @main): the column means and variances of the
  first layer's result (the variance through the outlined variance function and the selection it calls), the
  normalisation, scale, shift and ramp; then, computed a second time for the second layer, the edge endpoints, degrees
  and edge weights. As two lists of operations, the outlined functions written out at their calls, and what the
  buffers read later hold after each.
-/
import proofs.«163689_j11029476016716_1_alg».proof.Proof.Gen.ReferenceIdeal
import proofs.«163689_j11029476016716_1_alg».proof.Proof.RChain
import proofs.«163689_j11029476016716_1_alg».proof.Proof.RBn
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 63 … 107: the batch normalisation and the ramp (the variance function's nineteen operations and
    the three of the selection it calls, then the ramp's three, each over its call's own buffers). -/
abbrev opsB1 : List (HloOp τ sig (Elt F)) :=
  [ nullary main_cst_10 (constant S_ .f32 0x47435000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v46) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v46) main_call1.v4 main_call1.v5 subf,
    TRef.binary main_call1.v5 main_call1.v5 main_call1.v6 mulf,
    TRef.unary (.of main_c_11) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v46 main_v52 main_v53 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (mulf : (⟨S50000x128, .f32⟩ : BufTy).Contents (Elt F) → (⟨S50000x128, .f32⟩ : BufTy).Contents (Elt F) → (⟨S50000x128, .f32⟩ : BufTy).Contents (Elt F)),
    unary main_arg4 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (mulf : (⟨S50000x128, .f32⟩ : BufTy).Contents (Elt F) → (⟨S50000x128, .f32⟩ : BufTy).Contents (Elt F) → (⟨S50000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v65) main_call2.v0 main_call2.v1 maximumf ]

/-- @main's operations 108 … 147: the endpoints, degrees and edge weights once more. -/
abbrev opsB2 : List (HloOp τ sig (Elt F)) :=
  [ unary main_arg1 main_v67 ((extractStridedSlice S1x1600000 ![0, 0] · slices_S2x1600000_S1x1600000_0_0) : (⟨S2x1600000, .i32⟩ : BufTy).Contents (Elt F) → (⟨S1x1600000, .i32⟩ : BufTy).Contents (Elt F)),
    reshape main_v67 main_v68 rfl shapeCasts_S1x1600000_S1600000,
    unary main_arg1 main_v69 ((extractStridedSlice S1x1600000 ![1, 0] · slices_S2x1600000_S1x1600000_1_0) : (⟨S2x1600000, .i32⟩ : BufTy).Contents (Elt F) → (⟨S1x1600000, .i32⟩ : BufTy).Contents (Elt F)),
    reshape main_v69 main_v70 rfl shapeCasts_S1x1600000_S1600000,
    nullary main_v71 (iotaInDim S50000 32 0),
    binary main_v68 main_v71 main_v72 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v70 main_v71 main_v73 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst_13 (constant S_ .f32 0x3F800000#32),
    unary main_cst_13 main_v74 (broadcastInDim S1650000 ![] bcast_S_S1650000 : (⟨S_, .f32⟩ : BufTy).Contents (Elt F) → (⟨S1650000, .f32⟩ : BufTy).Contents (Elt F)),
    nullary main_cst_14 (constant S_ .f32 0x00000000#32),
    unary main_cst_14 main_v75 (broadcastInDim S50000 ![] bcast_S_S50000 : (⟨S_, .f32⟩ : BufTy).Contents (Elt F) → (⟨S50000, .f32⟩ : BufTy).Contents (Elt F)),
    unary main_v73 main_v76 (broadcastInDim S1650000x1 ![0] bcast_S1650000_S1650000x1_0 : (⟨S1650000, .i32⟩ : BufTy).Contents (Elt F) → (⟨S1650000x1, .i32⟩ : BufTy).Contents (Elt F)),
    ternary main_v75 main_v76 main_v74 main_v77 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_15 (constant S_ .f32 0x00000000#32),
    unary main_cst_15 main_v78 (broadcastInDim S50000 ![] bcast_S_S50000 : (⟨S_, .f32⟩ : BufTy).Contents (Elt F) → (⟨S50000, .f32⟩ : BufTy).Contents (Elt F)),
    binary main_v77 main_v78 main_v79 (cmpf .ogt : (⟨S50000, .f32⟩ : BufTy).Contents (Elt F) → (⟨S50000, .f32⟩ : BufTy).Contents (Elt F) → (⟨S50000, .i1⟩ : BufTy).Contents (Elt F)),
    unary main_v77 main_v80 (Host.rsqrt : (⟨S50000, .f32⟩ : BufTy).Contents (Elt F) → (⟨S50000, .f32⟩ : BufTy).Contents (Elt F)),
    nullary main_cst_16 (constant S_ .f32 0x00000000#32),
    TRef.unary (.of main_cst_16) main_call3.v0 id,
    TRef.unary main_call3.v0 main_call3.v1 (broadcastInDim S50000 ![] bcast_S_S50000),
    TRef.ternary (.of main_v79) (.of main_v80) main_call3.v1 main_call3.v2 select,
    nullary main_c_17 (constantI S_ 32 0#32),
    unary main_c_17 main_v82 (broadcastInDim S1650000 ![] bcast_S_S1650000 : (⟨S_, .i32⟩ : BufTy).Contents (Elt F) → (⟨S1650000, .i32⟩ : BufTy).Contents (Elt F)),
    binary main_v72 main_v82 main_v83 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v84 (broadcastInDim S1650000 ![] bcast_S_S1650000 : (⟨S_, .i32⟩ : BufTy).Contents (Elt F) → (⟨S1650000, .i32⟩ : BufTy).Contents (Elt F)),
    binary main_v72 main_v84 main_v85 (addi : (⟨S1650000, .i32⟩ : BufTy).Contents (Elt F) → (⟨S1650000, .i32⟩ : BufTy).Contents (Elt F) → (⟨S1650000, .i32⟩ : BufTy).Contents (Elt F)),
    ternary main_v83 main_v85 main_v72 main_v86 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v86 main_v87 (broadcastInDim S1650000x1 ![0] bcast_S1650000_S1650000x1_0 : (⟨S1650000, .i32⟩ : BufTy).Contents (Elt F) → (⟨S1650000x1, .i32⟩ : BufTy).Contents (Elt F)),
    binary main_v81 main_v87 main_v88 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_19 (constantI S_ 32 0#32),
    unary main_c_19 main_v89 (broadcastInDim S1650000 ![] bcast_S_S1650000 : (⟨S_, .i32⟩ : BufTy).Contents (Elt F) → (⟨S1650000, .i32⟩ : BufTy).Contents (Elt F)),
    binary main_v73 main_v89 main_v90 (cmpi .slt : (⟨S1650000, .i32⟩ : BufTy).Contents (Elt F) → (⟨S1650000, .i32⟩ : BufTy).Contents (Elt F) → (⟨S1650000, .i1⟩ : BufTy).Contents (Elt F)),
    nullary main_c_20 (constantI S_ 32 50000#32),
    unary main_c_20 main_v91 (broadcastInDim S1650000 ![] bcast_S_S1650000 : (⟨S_, .i32⟩ : BufTy).Contents (Elt F) → (⟨S1650000, .i32⟩ : BufTy).Contents (Elt F)),
    binary main_v73 main_v91 main_v92 (addi : (⟨S1650000, .i32⟩ : BufTy).Contents (Elt F) → (⟨S1650000, .i32⟩ : BufTy).Contents (Elt F) → (⟨S1650000, .i32⟩ : BufTy).Contents (Elt F)),
    ternary main_v90 main_v92 main_v73 main_v93 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v93 main_v94 (broadcastInDim S1650000x1 ![0] bcast_S1650000_S1650000x1_0 : (⟨S1650000, .i32⟩ : BufTy).Contents (Elt F) → (⟨S1650000x1, .i32⟩ : BufTy).Contents (Elt F)),
    binary main_v81 main_v94 main_v95 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v88 main_v95 main_v96 (mulf : (⟨S1650000, .f32⟩ : BufTy).Contents (Elt F) → (⟨S1650000, .f32⟩ : BufTy).Contents (Elt F) → (⟨S1650000, .f32⟩ : BufTy).Contents (Elt F)) ]

/-- Window `main_part1`'s operations. -/
abbrev opsB : List (HloOp τ sig (Elt F)) := opsB1 ++ opsB2

set_option maxRecDepth 8192 in
set_option maxHeartbeats 8000000 in
/-- The window is that straight line: the outlined functions unfolded at their calls and the records at their fields,
    both sides are one chain of steps once sequencing is re-associated. -/
theorem main_part1_eq (c : Dev nD) : main_part1 (F := F) c = seq opsB := by
  rw [show (opsB : List (HloOp τ sig (Elt F))) = opsB1 ++ opsB2 from rfl, seq_append]
  simp only [main_part1, fn_var.body, fn_where_0.body, fn_relu.body, fn_where.body, opsB1, opsB2, seq, bind_assoc, pure_bind]
  rfl

set_option maxRecDepth 8192 in
theorem opsB1_sub : (opsB1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsB2_sub : (opsB2 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
set_option maxHeartbeats 4500000 in
/-- After the first list the ramp's buffer holds the normalised, scaled, shifted and clipped matrix, provided the buffer
    of column sums held the column sums of the matrix before it (the reduction is the previous window's last operation). -/
theorem B1_v66 (W : Valuation τ sig (Elt F))
    (hsum : W (main_v47 : DevRef τ sig) = Cert.RBn.colSum (W (main_v46 : DevRef τ sig))) :
    after opsB1 W (main_v66 : DevRef τ sig)
      = Cert.RBn.bnRelu (W (main_v46 : DevRef τ sig)) (W (main_arg4 : DevRef τ sig)) (W (main_arg5 : DevRef τ sig)) := by
  after_results_simp
  rw [hsum]
  rfl

theorem B1_arg0 (W : Valuation τ sig (Elt F)) : after opsB1 W (main_arg0 : DevRef τ sig) = W (main_arg0 : DevRef τ sig) := by
  after_results_simp
theorem B1_arg1 (W : Valuation τ sig (Elt F)) : after opsB1 W (main_arg1 : DevRef τ sig) = W (main_arg1 : DevRef τ sig) := by
  after_results_simp
theorem B1_arg2 (W : Valuation τ sig (Elt F)) : after opsB1 W (main_arg2 : DevRef τ sig) = W (main_arg2 : DevRef τ sig) := by
  after_results_simp
theorem B1_arg3 (W : Valuation τ sig (Elt F)) : after opsB1 W (main_arg3 : DevRef τ sig) = W (main_arg3 : DevRef τ sig) := by
  after_results_simp
theorem B1_arg4 (W : Valuation τ sig (Elt F)) : after opsB1 W (main_arg4 : DevRef τ sig) = W (main_arg4 : DevRef τ sig) := by
  after_results_simp
theorem B1_arg5 (W : Valuation τ sig (Elt F)) : after opsB1 W (main_arg5 : DevRef τ sig) = W (main_arg5 : DevRef τ sig) := by
  after_results_simp
theorem B1_arg6 (W : Valuation τ sig (Elt F)) : after opsB1 W (main_arg6 : DevRef τ sig) = W (main_arg6 : DevRef τ sig) := by
  after_results_simp
theorem B1_arg7 (W : Valuation τ sig (Elt F)) : after opsB1 W (main_arg7 : DevRef τ sig) = W (main_arg7 : DevRef τ sig) := by
  after_results_simp

set_option maxRecDepth 8192 in
set_option maxHeartbeats 4000000 in
theorem B2_v72 (W : Valuation τ sig (Elt F)) :
    after opsB2 W (main_v72 : DevRef τ sig) = Cert.RChain.srcOf (W (main_arg1 : DevRef τ sig)) := by
  after_results_simp
  rfl
set_option maxRecDepth 8192 in
set_option maxHeartbeats 4000000 in
theorem B2_v73 (W : Valuation τ sig (Elt F)) :
    after opsB2 W (main_v73 : DevRef τ sig) = Cert.RChain.dstOf (W (main_arg1 : DevRef τ sig)) := by
  after_results_simp
  rfl
set_option maxRecDepth 8192 in
set_option maxHeartbeats 4000000 in
/-- The edge weights, from the edge list alone. -/
theorem B2_v96 (W : Valuation τ sig (Elt F)) :
    after opsB2 W (main_v96 : DevRef τ sig)
      = Cert.RChain.normOf (Cert.RChain.srcOf (W (main_arg1 : DevRef τ sig))) (Cert.RChain.dstOf (W (main_arg1 : DevRef τ sig))) := by
  after_results_simp
  rfl

theorem B2_v66 (W : Valuation τ sig (Elt F)) : after opsB2 W (main_v66 : DevRef τ sig) = W (main_v66 : DevRef τ sig) := by
  after_results_simp
theorem B2_arg0 (W : Valuation τ sig (Elt F)) : after opsB2 W (main_arg0 : DevRef τ sig) = W (main_arg0 : DevRef τ sig) := by
  after_results_simp
theorem B2_arg1 (W : Valuation τ sig (Elt F)) : after opsB2 W (main_arg1 : DevRef τ sig) = W (main_arg1 : DevRef τ sig) := by
  after_results_simp
theorem B2_arg2 (W : Valuation τ sig (Elt F)) : after opsB2 W (main_arg2 : DevRef τ sig) = W (main_arg2 : DevRef τ sig) := by
  after_results_simp
theorem B2_arg3 (W : Valuation τ sig (Elt F)) : after opsB2 W (main_arg3 : DevRef τ sig) = W (main_arg3 : DevRef τ sig) := by
  after_results_simp
theorem B2_arg4 (W : Valuation τ sig (Elt F)) : after opsB2 W (main_arg4 : DevRef τ sig) = W (main_arg4 : DevRef τ sig) := by
  after_results_simp
theorem B2_arg5 (W : Valuation τ sig (Elt F)) : after opsB2 W (main_arg5 : DevRef τ sig) = W (main_arg5 : DevRef τ sig) := by
  after_results_simp
theorem B2_arg6 (W : Valuation τ sig (Elt F)) : after opsB2 W (main_arg6 : DevRef τ sig) = W (main_arg6 : DevRef τ sig) := by
  after_results_simp
theorem B2_arg7 (W : Valuation τ sig (Elt F)) : after opsB2 W (main_arg7 : DevRef τ sig) = W (main_arg7 : DevRef τ sig) := by
  after_results_simp

end Cert.RefRun

end
-- ==== Proof.RefRunC.lean ====
/-
  The last window of the reference program: the second layer's matrix product and its graph convolution
  (statements 121 … 141 of @main), as a list of operations, and what the output buffer holds after them.
-/
import proofs.«163689_j11029476016716_1_alg».proof.Proof.Gen.ReferenceIdeal
import proofs.«163689_j11029476016716_1_alg».proof.Proof.RChain
import proofs.«163689_j11029476016716_1_alg».proof.Proof.RBn
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 148 … 167 (window `main_part2`): the product with the second weight matrix, the gather of its
    rows at the edges' sources, the scaling by the edge weights, the scatter-add at the destinations, the bias. -/
abbrev opsC : List (HloOp τ sig (Elt F)) :=
  [ binary main_v66 main_arg6 main_v97 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_21 (constantI S_ 32 0#32),
    unary main_c_21 main_v98 (broadcastInDim S1650000 ![] bcast_S_S1650000 : (⟨S_, .i32⟩ : BufTy).Contents (Elt F) → (⟨S1650000, .i32⟩ : BufTy).Contents (Elt F)),
    binary main_v72 main_v98 main_v99 (cmpi .slt : (⟨S1650000, .i32⟩ : BufTy).Contents (Elt F) → (⟨S1650000, .i32⟩ : BufTy).Contents (Elt F) → (⟨S1650000, .i1⟩ : BufTy).Contents (Elt F)),
    nullary main_c_22 (constantI S_ 32 50000#32),
    unary main_c_22 main_v100 (broadcastInDim S1650000 ![] bcast_S_S1650000 : (⟨S_, .i32⟩ : BufTy).Contents (Elt F) → (⟨S1650000, .i32⟩ : BufTy).Contents (Elt F)),
    binary main_v72 main_v100 main_v101 (addi : (⟨S1650000, .i32⟩ : BufTy).Contents (Elt F) → (⟨S1650000, .i32⟩ : BufTy).Contents (Elt F) → (⟨S1650000, .i32⟩ : BufTy).Contents (Elt F)),
    ternary main_v99 main_v101 main_v72 main_v102 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v102 main_v103 (broadcastInDim S1650000x1 ![0] bcast_S1650000_S1650000x1_0 : (⟨S1650000, .i32⟩ : BufTy).Contents (Elt F) → (⟨S1650000x1, .i32⟩ : BufTy).Contents (Elt F)),
    binary main_v97 main_v103 main_v104 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v96 main_v105 (broadcastInDim S1650000x1 ![0] bcast_S1650000_S1650000x1_0 : (⟨S1650000, .f32⟩ : BufTy).Contents (Elt F) → (⟨S1650000x1, .f32⟩ : BufTy).Contents (Elt F)),
    unary main_v105 main_v106 (broadcastInDim S1650000x64 ![0, 1] bcast_S1650000x1_S1650000x64_0_1 : (⟨S1650000x1, .f32⟩ : BufTy).Contents (Elt F) → (⟨S1650000x64, .f32⟩ : BufTy).Contents (Elt F)),
    binary main_v104 main_v106 main_v107 (mulf : (⟨S1650000x64, .f32⟩ : BufTy).Contents (Elt F) → (⟨S1650000x64, .f32⟩ : BufTy).Contents (Elt F) → (⟨S1650000x64, .f32⟩ : BufTy).Contents (Elt F)),
    nullary main_cst_23 (constant S_ .f32 0x00000000#32),
    unary main_cst_23 main_v108 (broadcastInDim S50000x64 ![] bcast_S_S50000x64 : (⟨S_, .f32⟩ : BufTy).Contents (Elt F) → (⟨S50000x64, .f32⟩ : BufTy).Contents (Elt F)),
    unary main_v73 main_v109 (broadcastInDim S1650000x1 ![0] bcast_S1650000_S1650000x1_0 : (⟨S1650000, .i32⟩ : BufTy).Contents (Elt F) → (⟨S1650000x1, .i32⟩ : BufTy).Contents (Elt F)),
    ternary main_v108 main_v109 main_v107 main_v110 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg7 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v110 main_v112 main_v113 (addf : (⟨S50000x64, .f32⟩ : BufTy).Contents (Elt F) → (⟨S50000x64, .f32⟩ : BufTy).Contents (Elt F) → (⟨S50000x64, .f32⟩ : BufTy).Contents (Elt F)) ]

theorem main_part2_eq (c : Dev nD) : main_part2 (F := F) c = seq opsC := rfl

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 2000000 in
/-- After the window the output buffer holds the 64-lane convolution of the product, from whatever the endpoint,
    weight and activation buffers held before it. -/
theorem C_v113 (W : Valuation τ sig (Elt F)) :
    after opsC W (main_v113 : DevRef τ sig)
      = Cert.RChain.conv64 (W (main_v72 : DevRef τ sig)) (W (main_v73 : DevRef τ sig)) (W (main_v96 : DevRef τ sig))
          (Cert.RBn.dot2 (W (main_v66 : DevRef τ sig)) (W (main_arg6 : DevRef τ sig))) (W (main_arg7 : DevRef τ sig)) := by
  after_results_simp
  rfl

theorem C_arg0 (W : Valuation τ sig (Elt F)) : after opsC W (main_arg0 : DevRef τ sig) = W (main_arg0 : DevRef τ sig) := by
  after_results_simp
theorem C_arg1 (W : Valuation τ sig (Elt F)) : after opsC W (main_arg1 : DevRef τ sig) = W (main_arg1 : DevRef τ sig) := by
  after_results_simp
theorem C_arg2 (W : Valuation τ sig (Elt F)) : after opsC W (main_arg2 : DevRef τ sig) = W (main_arg2 : DevRef τ sig) := by
  after_results_simp
theorem C_arg3 (W : Valuation τ sig (Elt F)) : after opsC W (main_arg3 : DevRef τ sig) = W (main_arg3 : DevRef τ sig) := by
  after_results_simp
theorem C_arg4 (W : Valuation τ sig (Elt F)) : after opsC W (main_arg4 : DevRef τ sig) = W (main_arg4 : DevRef τ sig) := by
  after_results_simp
theorem C_arg5 (W : Valuation τ sig (Elt F)) : after opsC W (main_arg5 : DevRef τ sig) = W (main_arg5 : DevRef τ sig) := by
  after_results_simp
theorem C_arg6 (W : Valuation τ sig (Elt F)) : after opsC W (main_arg6 : DevRef τ sig) = W (main_arg6 : DevRef τ sig) := by
  after_results_simp
theorem C_arg7 (W : Valuation τ sig (Elt F)) : after opsC W (main_arg7 : DevRef τ sig) = W (main_arg7 : DevRef τ sig) := by
  after_results_simp

end Cert.RefRun

end
-- ==== Proof.RefRun.lean ====
/-
  The reference program's run: @main as ONE list of its 167 operations (the three windows in order, the outlined
  functions written out at their calls), its run from any memory, and the output buffer read back as a composed pure
  term of the eight arguments: two graph convolutions over the same normalised adjacency, with a batch normalisation
  and a ramp between them.
-/
import proofs.«163689_j11029476016716_1_alg».proof.Proof.RefRunA
import proofs.«163689_j11029476016716_1_alg».proof.Proof.RefRunB
import proofs.«163689_j11029476016716_1_alg».proof.Proof.RefRunC
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the outlined functions' operations in the place of their calls. -/
abbrev ops : List (HloOp τ sig (Elt F)) := opsA ++ (opsB ++ opsC)

/-- @main is that straight line: its three windows are, and two lines run one after the other are their concatenation. -/
theorem main_eq (c : Dev nD) : main (F := F) c = seq ops := by
  rw [show (ops : List (HloOp τ sig (Elt F))) = opsA ++ (opsB ++ opsC) from rfl, seq_append, seq_append,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsB, List.mem_append] at h
    rcases h with h | (h | h) | h
    exacts [List.forall_iff_forall_mem.mp opsA_sub op h, List.forall_iff_forall_mem.mp opsB1_sub op h,
      List.forall_iff_forall_mem.mp opsB2_sub op h, List.forall_iff_forall_mem.mp opsC_sub op h]

set_option maxRecDepth 8192 in
set_option maxHeartbeats 4000000 in
/-- At the compiled mesh, for any float values, from any memory with zero counters: every weakly fair execution of @main
    on the TensorCore terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- What the reference computes from its eight arguments: the features `x`, the edge list `ei`, the first layer's weight
    and bias, the normalisation's scale and shift, the second layer's weight and bias. Both convolutions run over the
    endpoints and edge weights of the same edge list. -/
def refOut (x : FVec F S50000x64 .f32) (ei : IVec S2x1600000 32) (w1 : FVec F S64x128 .f32) (b1 g be : FVec F S128 .f32)
    (w2 : FVec F S128x64 .f32) (b2 : FVec F S64 .f32) : FVec F S50000x64 .f32 :=
  Cert.RChain.conv64 (Cert.RChain.srcOf ei) (Cert.RChain.dstOf ei) (Cert.RChain.normOf (Cert.RChain.srcOf ei) (Cert.RChain.dstOf ei))
    (Cert.RBn.dot2 (Cert.RBn.bnRelu (Cert.RChain.conv128 (Cert.RChain.srcOf ei) (Cert.RChain.dstOf ei) (Cert.RChain.normOf (Cert.RChain.srcOf ei) (Cert.RChain.dstOf ei)) (Cert.RBn.dot1 x w1) b1) g be) w2) b2

/-- The fold over the whole list is the four lists' folds, one after the other. -/
theorem after_ops (V : Valuation τ sig (Elt F)) :
    after ops V = after opsC (after opsB2 (after opsB1 (after opsA V))) := by
  rw [show (ops : List (HloOp τ sig (Elt F))) = opsA ++ ((opsB1 ++ opsB2) ++ opsC) from rfl, after_append, after_append, after_append]

/-- The output buffer after @main is `refOut` of the arguments' contents. -/
theorem out_eq (V : Valuation τ sig (Elt F)) : after ops V (main_v113 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, C_v113, B2_v72, B2_v73, B2_v96, B2_v66, B2_arg6, B2_arg7,
    B1_v66 _ ((A_v47 V).trans (congrArg Cert.RBn.colSum (A_v46 V).symm)), B1_arg1, B1_arg6, B1_arg7,
    A_v46, A_arg1, A_arg4, A_arg5, A_arg6, A_arg7]
  rfl

theorem arg0_eq (V : Valuation τ sig (Elt F)) : after ops V (main_arg0 : DevRef τ sig) = V (main_arg0 : DevRef τ sig) := by
  rw [after_ops, C_arg0, B2_arg0, B1_arg0, A_arg0]
theorem arg1_eq (V : Valuation τ sig (Elt F)) : after ops V (main_arg1 : DevRef τ sig) = V (main_arg1 : DevRef τ sig) := by
  rw [after_ops, C_arg1, B2_arg1, B1_arg1, A_arg1]
theorem arg2_eq (V : Valuation τ sig (Elt F)) : after ops V (main_arg2 : DevRef τ sig) = V (main_arg2 : DevRef τ sig) := by
  rw [after_ops, C_arg2, B2_arg2, B1_arg2, A_arg2]
theorem arg3_eq (V : Valuation τ sig (Elt F)) : after ops V (main_arg3 : DevRef τ sig) = V (main_arg3 : DevRef τ sig) := by
  rw [after_ops, C_arg3, B2_arg3, B1_arg3, A_arg3]
theorem arg4_eq (V : Valuation τ sig (Elt F)) : after ops V (main_arg4 : DevRef τ sig) = V (main_arg4 : DevRef τ sig) := by
  rw [after_ops, C_arg4, B2_arg4, B1_arg4, A_arg4]
theorem arg5_eq (V : Valuation τ sig (Elt F)) : after ops V (main_arg5 : DevRef τ sig) = V (main_arg5 : DevRef τ sig) := by
  rw [after_ops, C_arg5, B2_arg5, B1_arg5, A_arg5]
theorem arg6_eq (V : Valuation τ sig (Elt F)) : after ops V (main_arg6 : DevRef τ sig) = V (main_arg6 : DevRef τ sig) := by
  rw [after_ops, C_arg6, B2_arg6, B1_arg6, A_arg6]
theorem arg7_eq (V : Valuation τ sig (Elt F)) : after ops V (main_arg7 : DevRef τ sig) = V (main_arg7 : DevRef τ sig) := by
  rw [after_ops, C_arg7, B2_arg7, B1_arg7, A_arg7]

end Cert.RefRun

end
-- ==== Proof.Finite.lean ====
/-
  Finiteness of the first graph convolution's result over the extended reals.

  The ideal floats are extended reals.  A sum or a product of two real numbers is a real number, and so is a finite
  sum of real numbers; hence an array all of whose entries are real numbers stays so under every operation that reads
  entries (a gather, a broadcast, a select), under the entrywise sum and product, and under an accumulating scatter:
  an entry of its result is an entry of the operand plus a finite sum of entries of the updates.  The degree of a
  node is such a scatter of ones into zeros, so it is a real number; where it is positive its inverse square root is
  the real number (sqrt deg)^(-1), and elsewhere the normalised degree is 0.  The edge weights are products of two of
  these, and a convolution of real arrays is a scatter of products of real numbers plus a real bias.
-/
import proofs.«163689_j11029476016716_1_alg».proof.Proof.KChain
import Idealize.ShloMosaic.PureOps.Ideal
import Idealize.ShloMosaic.PureOps.Ideal.Laws
import Idealize.ShloMosaic.Lib.ValueIdx

noncomputable section

open scoped BigOperators

namespace Cert.Finite

open Idealize.ShloMosaic Cert.KernelIdeal

/-- Every entry is a real number. -/
def AllReal {S : Shape} (v : S.Idx → EReal) : Prop := ∀ i, ∃ x : ℝ, v i = (x : EReal)

/-! ## Real numbers among the extended reals -/

/-- The sum of two real numbers is a real number. -/
theorem real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

/-- The product of two real numbers is a real number. -/
theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

/-- A finite sum of real numbers is a real number. -/
theorem real_sum {ι : Type} (s : Finset ι) (f : ι → EReal) (h : ∀ i ∈ s, ∃ x : ℝ, f i = (x : EReal)) :
    ∃ z : ℝ, ∑ i ∈ s, f i = (z : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ## The operations that keep every entry real -/

section Closure
variable {S T SI : Shape} {φ : FTy} {w : Nat}

/-- A gather reads entries of its operand. -/
theorem gather_real (d : GatherDims S SI T) (x : FVec Ideal S φ) (idx : IVec SI w) (hx : AllReal x) :
    AllReal (Host.gather d x idx) :=
  fun j => hx (d.operandIdx j idx)

/-- A broadcast reads entries of its operand. -/
theorem broadcastInDim_real (dims : Fin S.rank → Fin T.rank) (h : S.BroadcastsInDim T dims) (x : FVec Ideal S φ)
    (hx : AllReal x) : AllReal (broadcastInDim T dims h x) :=
  fun _ => hx _

/-- The entrywise product of two arrays of real numbers. -/
theorem mulf_real (a b : FVec Ideal S φ) (ha : AllReal a) (hb : AllReal b) : AllReal (mulf a b) :=
  fun i => real_mul (ha i) (hb i)

/-- The entrywise sum of two arrays of real numbers. -/
theorem addf_real (a b : FVec Ideal S φ) (ha : AllReal a) (hb : AllReal b) : AllReal (addf a b) :=
  fun i => real_add (ha i) (hb i)

/-- A select between two arrays of real numbers. -/
theorem select_real (c : IVec S 1) (a b : FVec Ideal S φ) (ha : AllReal a) (hb : AllReal b) : AllReal (select c a b) := by
  intro i
  show ∃ x : ℝ, (if c i = 1 then a i else b i) = (x : EReal)
  split
  · exact ha i
  · exact hb i

/-- An accumulating scatter: an entry of the operand plus a finite sum of entries of the updates. -/
theorem scatterAdd_real {SU : Shape} (d : ScatterDims S SI SU) (x : FVec Ideal S φ) (idx : IVec SI w) (upd : FVec Ideal SU φ)
    (hx : AllReal x) (hu : AllReal upd) : AllReal (Host.scatterAdd (F := Ideal) d x idx upd) := by
  intro i
  show ∃ r : ℝ, Ideal.hostScatterAdd d x idx upd i = (r : EReal)
  unfold Ideal.hostScatterAdd
  exact real_add (hx i) (real_sum _ _ fun j _ => hu j)

end Closure

/-! ## The two constants -/

/-- The pattern of 1.0 denotes the real number 1. -/
theorem ofBits_one : Ideal.ofBits .f32 0x3F800000#32 = ((1 : ℝ) : EReal) := by
  simp [Ideal.ofBits, Ideal.ieee, -EReal.coe_mul]; norm_num

/-- The array of zeros. -/
theorem zeros_real {S : Shape} : AllReal (constant (F := Ideal) S .f32 0x00000000#32) :=
  fun _ => ⟨0, Ideal.ofBits_zero_f32⟩

/-- The array of ones. -/
theorem ones_real {S : Shape} : AllReal (constant (F := Ideal) S .f32 0x3F800000#32) :=
  fun _ => ⟨1, ofBits_one⟩

/-! ## The degree, its inverse square root, the edge weights, the convolution -/

variable [Facts₀]

/-- The degree of every node is a real number. -/
theorem degOf_real (dst : IVec S1650000 32) : AllReal (Cert.KChain.degOf (F := Ideal) dst) := by
  unfold Cert.KChain.degOf
  exact scatterAdd_real _ _ _ _ (broadcastInDim_real _ _ _ zeros_real) (broadcastInDim_real _ _ _ ones_real)

/-- The inverse square root of a positive real number is a real number. -/
theorem rsqrt_real {r : ℝ} (h : 0 < r) : ∃ x : ℝ, Ideal.rsqrt (r : EReal) = (x : EReal) := by
  refine ⟨(Real.sqrt r)⁻¹, ?_⟩
  rw [Ideal.rsqrt_coe, if_neg (not_lt.mpr h.le), if_neg h.ne']

/-- The normalised degree of an array of real numbers: the inverse square root where the entry is positive, 0 elsewhere. -/
theorem dinvOf_real (deg : FVec Ideal S50000 .f32) (hd : AllReal deg) : AllReal (Cert.KChain.dinvOf (F := Ideal) deg) := by
  intro i
  obtain ⟨r, hr⟩ := hd i
  show ∃ x : ℝ, Scalar.select (Ideal.cmp .ogt (deg i) (Ideal.ofBits .f32 0x00000000#32)) (Ideal.rsqrt (deg i))
      (Ideal.ofBits .f32 0x00000000#32) = (x : EReal)
  rw [hr, Ideal.ofBits_zero_f32]
  by_cases h : 0 < r
  · have hc : Ideal.cmp .ogt (r : EReal) 0 = 1#1 := by
      unfold Ideal.cmp
      simp [h]
    rw [hc, ValueIdx.select_one]
    exact rsqrt_real h
  · have hc : Ideal.cmp .ogt (r : EReal) 0 = 0#1 := by
      unfold Ideal.cmp
      simp [h]
    rw [hc, ValueIdx.select_zero]
    exact ⟨0, rfl⟩

/-- The weight of every edge is a real number. -/
theorem normOf_real (src dst : IVec S1650000 32) : AllReal (Cert.KChain.normOf (F := Ideal) src dst) := by
  unfold Cert.KChain.normOf
  exact mulf_real _ _ (gather_real _ _ _ (dinvOf_real _ (degOf_real dst))) (gather_real _ _ _ (dinvOf_real _ (degOf_real dst)))

/-- A convolution of arrays of real numbers is an array of real numbers. -/
theorem conv128_real (src dst : IVec S1650000 32) (nrm : FVec Ideal S1650000 .f32) (h : FVec Ideal S50000x128 .f32) (b : FVec Ideal S128 .f32)
    (hn : AllReal nrm) (hh : AllReal h) (hb : AllReal b) : AllReal (Cert.KChain.conv128 (F := Ideal) src dst nrm h b) := by
  unfold Cert.KChain.conv128
  refine addf_real _ _ (scatterAdd_real _ _ _ _ (broadcastInDim_real _ _ _ zeros_real) ?_)
    (broadcastInDim_real _ _ _ (broadcastInDim_real _ _ _ hb))
  exact mulf_real _ _ (gather_real _ _ _ hh) (broadcastInDim_real _ _ _ (broadcastInDim_real _ _ _ hn))

end Cert.Finite

end
-- ==== Proof.ReadK.lean ====
/-
  The kernel side's per-column scale and shift, read at a column: with `s` and `ss` the column sums and the column sums
  of squares kept as one row, `scale j = g j · (ss j / 50000 - (s j / 50000)² + ε)^(-1/2)` and
  `shift j = be j - (s j / 50000) · scale j`; the literals are kept as the patterns they are printed with.
-/
import proofs.«163689_j11029476016716_1_alg».proof.Proof.KBn
import Idealize.ShloMosaic.Lib.ValueIdx
import Idealize.ShloMosaic.Lib.ValueLayout
import Idealize.ShloMosaic.Lib.IdealHost
import Idealize.ShloMosaic.PureOps.Ideal.Laws

noncomputable section

namespace Cert.ReadK

open Idealize.ShloMosaic Idealize.ShloMosaic.ValueIdx Cert.KernelIdeal

variable [Facts₀]
open Facts₀

/-- The column mean. -/
theorem meanK_apply (s : FVec Ideal S1x128 .f32) (j : Fin 128) :
    Cert.KBn.meanK (F := Ideal) s (ix1 j) = Ideal.div (s (ix2 (0 : Fin 1) j)) (Ideal.ofBits .f32 0x47435000#32) := by
  unfold Cert.KBn.meanK
  rw [hostDivf_apply, shapeCast_1a_a_apply, broadcastInDim_scalar_apply, constant_apply]

/-- The column variance. -/
theorem varK_apply (s ss : FVec Ideal S1x128 .f32) (j : Fin 128) :
    Cert.KBn.varK (F := Ideal) s ss (ix1 j)
      = Ideal.div (ss (ix2 (0 : Fin 1) j)) (Ideal.ofBits .f32 0x47435000#32)
        - Ideal.div (s (ix2 (0 : Fin 1) j)) (Ideal.ofBits .f32 0x47435000#32) * Ideal.div (s (ix2 (0 : Fin 1) j)) (Ideal.ofBits .f32 0x47435000#32) := by
  unfold Cert.KBn.varK
  rw [subf_apply, mulf_apply, meanK_apply, hostDivf_apply, shapeCast_1a_a_apply, broadcastInDim_scalar_apply, constant_apply]

/-- The column scale. -/
theorem scaleV_apply (s ss : FVec Ideal S1x128 .f32) (g : FVec Ideal S128 .f32) (j : Fin 128) :
    Cert.KBn.scaleV (F := Ideal) s ss g (ix1 j)
      = g (ix1 j) * Ideal.rsqrt (Cert.KBn.varK (F := Ideal) s ss (ix1 j) + Ideal.ofBits .f32 0x3727C5AC#32) := by
  unfold Cert.KBn.scaleV
  rw [mulf_apply]
  show g (ix1 j) * Ideal.rsqrt (addf (Cert.KBn.varK (F := Ideal) s ss) _ (ix1 j)) = _
  rw [addf_apply, broadcastInDim_scalar_apply, constant_apply]

/-- The column shift. -/
theorem shiftV_apply (s ss : FVec Ideal S1x128 .f32) (g be : FVec Ideal S128 .f32) (j : Fin 128) :
    Cert.KBn.shiftV (F := Ideal) s ss g be (ix1 j)
      = be (ix1 j) - Cert.KBn.meanK (F := Ideal) s (ix1 j) * Cert.KBn.scaleV (F := Ideal) s ss g (ix1 j) := by
  unfold Cert.KBn.shiftV
  rw [subf_apply, mulf_apply]

/-- Scale and shift as rows read the vectors. -/
theorem scaleK_apply (s ss : FVec Ideal S1x128 .f32) (g : FVec Ideal S128 .f32) (j : Fin 128) :
    Cert.KBn.scaleK (F := Ideal) s ss g (ix2 (0 : Fin 1) j) = Cert.KBn.scaleV (F := Ideal) s ss g (ix1 j) := by
  unfold Cert.KBn.scaleK
  exact shapeCast_a_1a_apply _ _ 0 j

theorem shiftK_apply (s ss : FVec Ideal S1x128 .f32) (g be : FVec Ideal S128 .f32) (j : Fin 128) :
    Cert.KBn.shiftK (F := Ideal) s ss g be (ix2 (0 : Fin 1) j) = Cert.KBn.shiftV (F := Ideal) s ss g be (ix1 j) := by
  unfold Cert.KBn.shiftK
  exact shapeCast_a_1a_apply _ _ 0 j

end Cert.ReadK

end
-- ==== Proof.ReadR.lean ====
/-
  The reference's batch normalisation read at an entry: the column sum is `0 + ∑ r, h (r, j)`; the mean is that sum
  over 50000; a deviation is the entry less the mean; the variance is the sum of the squared deviations over
  `50000 - 0`, chosen against a not-a-number only if that divisor were not positive; the normalised entry is the
  deviation times the reciprocal square root of (variance + ε), times `g j`, plus `be j`, and the ramp is the maximum
  with 0.  The literals are kept as the patterns they are printed with.
-/
import proofs.«163689_j11029476016716_1_alg».proof.Proof.RBn
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReadR

open Idealize.ShloMosaic Idealize.ShloMosaic.ValueIdx Cert.ReferenceIdeal

variable [Facts₀]
open Facts₀

/-- A vector of 128 entries laid as the one row of a [1, 128] matrix. -/
theorem row_apply {α : Type} (v : S128.Idx → α) (j : Fin 128) :
    broadcastInDim S1x128 ![1] bcast_S128_S1x128_1 v (ix2 (0 : Fin 1) j) = v (ix1 j) := by
  refine broadcastInDim_apply ![1] bcast_S128_S1x128_1 v (ix2 (0 : Fin 1) j) (ix1 j) ?_
  intro a
  match a with
  | ⟨0, _⟩ => show j.val = if (128 : ℕ) = 1 then 0 else j.val; rw [if_neg (by decide)]

/-- A one-row matrix repeated down 50000 rows. -/
theorem down_apply {α : Type} (y : S1x128.Idx → α) (r : Fin 50000) (j : Fin 128) :
    broadcastInDim S50000x128 ![0, 1] bcast_S1x128_S50000x128_0_1 y (ix2 r j) = y (ix2 (0 : Fin 1) j) := by
  refine broadcastInDim_apply ![0, 1] bcast_S1x128_S50000x128_0_1 y (ix2 r j) (ix2 (0 : Fin 1) j) ?_
  intro a
  match a with
  | ⟨0, _⟩ => show (0 : ℕ) = if (1 : ℕ) = 1 then 0 else r.val; rw [if_pos rfl]
  | ⟨1, _⟩ => show j.val = if (128 : ℕ) = 1 then 0 else j.val; rw [if_neg (by decide)]

/-- The column sum. -/
theorem colSum_apply (h : FVec Ideal S50000x128 .f32) (j : Fin 128) :
    Cert.RBn.colSum (F := Ideal) h (ix1 j) = 0 + ∑ r : Fin 50000, h (ix2 r j) := by
  unfold Cert.RBn.colSum
  have hR : S50000x128.Reduces [0] S128 := by decide
  rw [hostReduceAdd_apply, constant_apply, Ideal.ofBits_zero_f32, Ideal.hostReduceAdd_single reducesTo_S50000x128_S128_d0 hR]
  show (0 : EReal) + ∑ k : Fin 50000, h (hR.lift (ix1 j) k) = _
  refine congrArg _ (Finset.sum_congr rfl fun r _ => congrArg h ?_)
  funext a
  refine Fin.ext ?_
  match a with
  | ⟨0, _⟩ => rfl
  | ⟨1, _⟩ => rfl

/-- The column mean. -/
theorem meanOf_apply (h : FVec Ideal S50000x128 .f32) (j : Fin 128) :
    Cert.RBn.meanOf (F := Ideal) h (ix1 j) = Ideal.div (0 + ∑ r : Fin 50000, h (ix2 r j)) (Ideal.ofBits .f32 0x47435000#32) := by
  unfold Cert.RBn.meanOf
  rw [hostDivf_apply, colSum_apply, broadcastInDim_scalar_apply, constant_apply]

/-- A deviation from the column mean. -/
theorem centered_apply (h : FVec Ideal S50000x128 .f32) (r : Fin 50000) (j : Fin 128) :
    Cert.RBn.centered (F := Ideal) h (ix2 r j)
      = h (ix2 r j) - Ideal.div (0 + ∑ r : Fin 50000, h (ix2 r j)) (Ideal.ofBits .f32 0x47435000#32) := by
  unfold Cert.RBn.centered
  rw [subf_apply, down_apply, hostDivf_apply, row_apply, colSum_apply, broadcastInDim_scalar_apply, constant_apply]

/-- The variance's divisor. -/
theorem varDen_apply : Cert.RBn.varDen (F := Ideal) ix0 = Ideal.ofBits .f32 0x47435000#32 - (((0 : ℤ) : ℝ) : EReal) := by
  unfold Cert.RBn.varDen
  rw [subf_apply, constant_apply, sitofp_apply, constantI_apply]
  rfl

/-- The column variance. -/
theorem varOf_apply (h : FVec Ideal S50000x128 .f32) (j : Fin 128) :
    Cert.RBn.varOf (F := Ideal) h (ix1 j)
      = Scalar.select (Ideal.cmp .ogt (Cert.RBn.varDen (F := Ideal) ix0) (Ideal.ofBits .f32 0x00000000#32))
          (Ideal.div (0 + ∑ r : Fin 50000, Cert.RBn.centered (F := Ideal) h (ix2 r j) * Cert.RBn.centered (F := Ideal) h (ix2 r j))
            (Cert.RBn.varDen (F := Ideal) ix0))
          (Ideal.ofBits .f32 0x7FC00000#32) := by
  unfold Cert.RBn.varOf
  rw [select_apply, broadcastInDim_scalar_apply, broadcastInDim_scalar_apply, cmpf_apply, hostDivf_apply,
    broadcastInDim_scalar_apply, colSum_apply, constant_apply]
  simp only [mulf_apply]
  rfl

/-- The normalised, scaled, shifted and ramped entry. -/
theorem bnRelu_apply (h : FVec Ideal S50000x128 .f32) (g be : FVec Ideal S128 .f32) (r : Fin 50000) (j : Fin 128) :
    Cert.RBn.bnRelu (F := Ideal) h g be (ix2 r j)
      = max ((h (ix2 r j) - Cert.RBn.meanOf (F := Ideal) h (ix1 j))
              * Ideal.rsqrt (Cert.RBn.varOf (F := Ideal) h (ix1 j) + Ideal.ofBits .f32 0x3727C5AC#32)
              * g (ix1 j) + be (ix1 j)) (Ideal.ofBits .f32 0x00000000#32) := by
  unfold Cert.RBn.bnRelu
  rw [maximumf_apply, addf_apply, mulf_apply, mulf_apply, subf_apply, down_apply, down_apply, down_apply, down_apply,
    row_apply, row_apply, row_apply, row_apply, broadcastInDim_scalar_apply, constant_apply]
  show max ((h (ix2 r j) - Cert.RBn.meanOf (F := Ideal) h (ix1 j))
      * Ideal.rsqrt (addf (Cert.RBn.varOf (F := Ideal) h) _ (ix1 j)) * g (ix1 j) + be (ix1 j)) _ = _
  rw [addf_apply, broadcastInDim_scalar_apply, constant_apply]

end Cert.ReadR

end
-- ==== Proof.BnMath.lean ====
/-
  The scalar mathematics of one batch-normalised column, over the extended reals.

  A column of 50000 REAL numbers `a` has mean `μ = (∑ a) / 50000` and variance `(∑ (a - μ)²) / 50000`, which is also
  `(∑ a²) / 50000 - μ²`.  With `ρ = (variance + ε)^(-1/2)`, `ε > 0`, the two ways of normalising an entry agree:
  `a r · (g · ρ) + (b - μ · (g · ρ)) = ((a r - μ) · ρ) · g + b`.  Every intermediate value is a real number, so the
  extended-real operations (sum, quotient by a non-zero real, reciprocal square root of a positive real, product,
  difference, maximum) act as the real ones; that is all that is used.
-/
import Idealize.ShloMosaic.PureOps.Ideal
import Idealize.ShloMosaic.PureOps.Ideal.Laws

noncomputable section

open scoped BigOperators

namespace Cert.BnMath

open Idealize.ShloMosaic

/-! ## Real numbers inside the extended reals -/

/-- A finite sum of reals, taken in the extended reals, is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The quotient of a real by a non-zero real. -/
theorem div_real (x y : ℝ) (hy : y ≠ 0) : Ideal.div (x : EReal) (y : EReal) = ((x / y : ℝ) : EReal) := by
  rw [Ideal.div_coe hy, ← EReal.coe_mul, mul_one_div]

/-- The reciprocal square root of a positive real. -/
theorem rsqrt_real_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The greater of two reals. -/
theorem coe_max (x y : ℝ) : max (x : EReal) (y : EReal) = ((max x y : ℝ) : EReal) :=
  (EReal.coe_strictMono.monotone.map_max).symm

/-- A positive real compares greater than zero. -/
theorem cmp_ogt_pos (x : ℝ) (hx : 0 < x) : Ideal.cmp .ogt (x : EReal) 0 = 1#1 := by
  unfold Ideal.cmp
  have : (0 : EReal) < (x : EReal) := by exact_mod_cast hx
  simp [this]

/-! ## The variance, two ways -/

/-- The mean of the squares less the square of the mean is the mean of the squared deviations. -/
theorem var_two_ways {N : ℕ} (a : Fin N → ℝ) (hN : (N : ℝ) ≠ 0) :
    (∑ i, a i * a i) / (N : ℝ) - ((∑ i, a i) / (N : ℝ)) * ((∑ i, a i) / (N : ℝ))
      = (∑ i, (a i - (∑ i, a i) / (N : ℝ)) * (a i - (∑ i, a i) / (N : ℝ))) / (N : ℝ) := by
  set μ := (∑ i, a i) / (N : ℝ) with hμ
  have hs : (∑ i, a i) = μ * N := by rw [hμ]; field_simp
  have h1 : (∑ i, (a i - μ) * (a i - μ)) = (∑ i, a i * a i) - 2 * μ * (∑ i, a i) + N * (μ * μ) := by
    have : ∀ i, (a i - μ) * (a i - μ) = a i * a i - 2 * μ * a i + μ * μ := fun i => by ring
    simp only [this, Finset.sum_add_distrib, Finset.sum_sub_distrib, ← Finset.mul_sum, Finset.sum_const, Finset.card_univ,
      Fintype.card_fin, nsmul_eq_mul]
    ring
  rw [h1, hs]
  field_simp
  ring

/-- The normalised entry as a real number: the common value of the two computations. -/
def normalised {N : ℕ} (a : Fin N → ℝ) (g b ε : ℝ) (r : Fin N) : ℝ :=
  max ((a r - (∑ i, a i) / (N : ℝ)) * (Real.sqrt ((∑ i, (a i - (∑ i, a i) / (N : ℝ)) * (a i - (∑ i, a i) / (N : ℝ))) / (N : ℝ) + ε))⁻¹ * g + b) 0

theorem var_eps_pos {N : ℕ} (a : Fin N → ℝ) (ε : ℝ) (hε : 0 < ε) :
    0 < (∑ i, (a i - (∑ i, a i) / (N : ℝ)) * (a i - (∑ i, a i) / (N : ℝ))) / (N : ℝ) + ε := by
  have : 0 ≤ (∑ i, (a i - (∑ i, a i) / (N : ℝ)) * (a i - (∑ i, a i) / (N : ℝ))) / (N : ℝ) :=
    div_nonneg (Finset.sum_nonneg fun i _ => mul_self_nonneg _) (Nat.cast_nonneg N)
  linarith

/-! ## The two computations of a normalised entry -/

/-- From the column sum and the column sum of squares: mean, variance as the mean of squares less the squared mean,
    scale `g · ρ`, shift `b - mean · scale`, entry times scale plus shift, ramp. -/
theorem from_sums (a : Fin 50000 → ℝ) (g b ε : ℝ) (hε : 0 < ε) (r : Fin 50000) :
    max (((a r : ℝ) : EReal)
          * ((g : EReal) * Ideal.rsqrt
              (Ideal.div (∑ i, ((a i : ℝ) : EReal) * ((a i : ℝ) : EReal)) ((50000 : ℝ) : EReal)
                - Ideal.div (∑ i, ((a i : ℝ) : EReal)) ((50000 : ℝ) : EReal) * Ideal.div (∑ i, ((a i : ℝ) : EReal)) ((50000 : ℝ) : EReal)
                + (ε : EReal)))
        + ((b : EReal) - Ideal.div (∑ i, ((a i : ℝ) : EReal)) ((50000 : ℝ) : EReal)
            * ((g : EReal) * Ideal.rsqrt
              (Ideal.div (∑ i, ((a i : ℝ) : EReal) * ((a i : ℝ) : EReal)) ((50000 : ℝ) : EReal)
                - Ideal.div (∑ i, ((a i : ℝ) : EReal)) ((50000 : ℝ) : EReal) * Ideal.div (∑ i, ((a i : ℝ) : EReal)) ((50000 : ℝ) : EReal)
                + (ε : EReal))))) 0
      = ((normalised a g b ε r : ℝ) : EReal) := by
  have hN : ((50000 : ℕ) : ℝ) ≠ 0 := by norm_num
  have hc : ((50000 : ℕ) : ℝ) = (50000 : ℝ) := by norm_num
  have e2 : (∑ i, ((a i : ℝ) : EReal) * ((a i : ℝ) : EReal)) = ((∑ i, a i * a i : ℝ) : EReal) := by
    rw [← sum_coe]; exact Finset.sum_congr rfl fun i _ => (EReal.coe_mul _ _).symm
  have hv := var_two_ways a hN
  have hp := var_eps_pos a ε hε
  rw [hc] at hv hp
  rw [sum_coe, e2, div_real _ _ (by norm_num), div_real _ _ (by norm_num), ← EReal.coe_mul, ← EReal.coe_sub, hv, ← EReal.coe_add,
    rsqrt_real_pos _ hp, ← EReal.coe_mul, ← EReal.coe_mul, ← EReal.coe_mul, ← EReal.coe_sub, ← EReal.coe_add,
    show (0 : EReal) = ((0 : ℝ) : EReal) from rfl, coe_max]
  unfold normalised
  rw [hc]
  have key : ∀ x μ ρ : ℝ, x * (g * ρ) + (b - μ * (g * ρ)) = (x - μ) * ρ * g + b := fun x μ ρ => by ring
  rw [key]

/-- Directly: the entry less the mean, times `ρ`, times `g`, plus `b`, ramp; the variance as the mean of the squared
    deviations. -/
theorem from_deviations (a : Fin 50000 → ℝ) (g b ε : ℝ) (hε : 0 < ε) (r : Fin 50000) :
    max (((((a r : ℝ) : EReal) - Ideal.div (∑ i, ((a i : ℝ) : EReal)) ((50000 : ℝ) : EReal))
          * Ideal.rsqrt
              (Ideal.div (∑ i, (((a i : ℝ) : EReal) - Ideal.div (∑ i, ((a i : ℝ) : EReal)) ((50000 : ℝ) : EReal))
                          * (((a i : ℝ) : EReal) - Ideal.div (∑ i, ((a i : ℝ) : EReal)) ((50000 : ℝ) : EReal))) ((50000 : ℝ) : EReal)
                + (ε : EReal)))
          * (g : EReal) + (b : EReal)) 0
      = ((normalised a g b ε r : ℝ) : EReal) := by
  have hp := var_eps_pos a ε hε
  have hc : ((50000 : ℕ) : ℝ) = (50000 : ℝ) := by norm_num
  rw [hc] at hp
  have e2 : (∑ i, (((a i : ℝ) : EReal) - (((∑ i, a i) / 50000 : ℝ) : EReal)) * (((a i : ℝ) : EReal) - (((∑ i, a i) / 50000 : ℝ) : EReal)))
      = ((∑ i, (a i - (∑ i, a i) / 50000) * (a i - (∑ i, a i) / 50000) : ℝ) : EReal) := by
    rw [← sum_coe]; exact Finset.sum_congr rfl fun i _ => by rw [← EReal.coe_sub, ← EReal.coe_mul]
  rw [sum_coe, div_real _ _ (by norm_num), e2, div_real _ _ (by norm_num), ← EReal.coe_add, rsqrt_real_pos _ hp, ← EReal.coe_sub,
    ← EReal.coe_mul, ← EReal.coe_mul, ← EReal.coe_add, show (0 : EReal) = ((0 : ℝ) : EReal) from rfl, coe_max]
  unfold normalised
  rw [hc]

end Cert.BnMath

end
-- ==== Proof.Consts.lean ====
/-
  The float literals of the batch normalisation as the real numbers their patterns denote: 50000 (the number of rows,
  exactly) and the stabiliser added to the variance (a positive real a little under 1e-5).
-/
import Idealize.ShloMosaic.PureOps.Ideal

noncomputable section

namespace Cert.Consts

open Idealize.ShloMosaic

/-- `50000.0` denotes the real 50000. -/
theorem ofBits_50000 : Ideal.ofBits .f32 0x47435000#32 = ((50000 : ℝ) : EReal) := by
  simp [Ideal.ofBits, Ideal.ieee, -EReal.coe_mul]; norm_num

/-- The stabiliser: 10995116 · 2⁻⁴⁰. -/
def eps : ℝ := 10995116 * (2 : ℝ) ^ (-40 : ℤ)

theorem eps_pos : 0 < eps := by unfold eps; positivity

theorem ofBits_eps : Ideal.ofBits .f32 0x3727C5AC#32 = ((eps : ℝ) : EReal) := by
  unfold eps
  simp [Ideal.ofBits, Ideal.ieee, -EReal.coe_mul]

end Cert.Consts

end
-- ==== Proof.BnBridge.lean ====
/-
  One batch-normalised entry, computed the kernel's way and the reference's way, from a REAL matrix: both are the real
  number `BnMath.normalised` of the entry's column.
-/
import proofs.«163689_j11029476016716_1_alg».proof.Proof.ReadK
import proofs.«163689_j11029476016716_1_alg».proof.Proof.ReadR
import proofs.«163689_j11029476016716_1_alg».proof.Proof.BnMath
import proofs.«163689_j11029476016716_1_alg».proof.Proof.Consts

noncomputable section

open scoped BigOperators

namespace Cert.BnBridge

open Idealize.ShloMosaic Idealize.ShloMosaic.ValueIdx

/-- The kernel's way: column sums `s`, column sums of squares `ss`, scale and shift rows, entry · scale + shift, ramp. -/
theorem kernel_entry [Cert.KernelIdeal.Facts₀]
    (h : FVec Ideal Cert.KernelIdeal.S50000x128 .f32) (s ss : FVec Ideal Cert.KernelIdeal.S1x128 .f32)
    (g be : FVec Ideal Cert.KernelIdeal.S128 .f32) (a : Fin 50000 → Fin 128 → ℝ) (γ β : Fin 128 → ℝ)
    (ha : ∀ r j, h (ix2 r j) = ((a r j : ℝ) : EReal)) (hg : ∀ j, g (ix1 j) = ((γ j : ℝ) : EReal))
    (hb : ∀ j, be (ix1 j) = ((β j : ℝ) : EReal))
    (hs : ∀ j : Fin 128, s (ix2 (0 : Fin 1) j) = ∑ r : Fin 50000, h (ix2 r j))
    (hss : ∀ j : Fin 128, ss (ix2 (0 : Fin 1) j) = ∑ r : Fin 50000, h (ix2 r j) * h (ix2 r j))
    (r : Fin 50000) (j : Fin 128) :
    max (h (ix2 r j) * Cert.KBn.scaleK (F := Ideal) s ss g (ix2 (0 : Fin 1) j)
          + Cert.KBn.shiftK (F := Ideal) s ss g be (ix2 (0 : Fin 1) j)) 0
      = ((Cert.BnMath.normalised (fun r => a r j) (γ j) (β j) Cert.Consts.eps r : ℝ) : EReal) := by
  rw [Cert.ReadK.scaleK_apply, Cert.ReadK.shiftK_apply, Cert.ReadK.shiftV_apply, Cert.ReadK.scaleV_apply, Cert.ReadK.varK_apply,
    Cert.ReadK.meanK_apply, hs, hss]
  simp only [ha]
  rw [hg, hb, Cert.Consts.ofBits_50000, Cert.Consts.ofBits_eps]
  exact Cert.BnMath.from_sums (fun r => a r j) (γ j) (β j) Cert.Consts.eps Cert.Consts.eps_pos r

/-- The reference's way: mean, deviations, variance of the deviations, normalise, scale, shift, ramp. -/
theorem reference_entry [Cert.ReferenceIdeal.Facts₀]
    (h : FVec Ideal Cert.ReferenceIdeal.S50000x128 .f32) (g be : FVec Ideal Cert.ReferenceIdeal.S128 .f32)
    (a : Fin 50000 → Fin 128 → ℝ) (γ β : Fin 128 → ℝ)
    (ha : ∀ r j, h (ix2 r j) = ((a r j : ℝ) : EReal)) (hg : ∀ j, g (ix1 j) = ((γ j : ℝ) : EReal))
    (hb : ∀ j, be (ix1 j) = ((β j : ℝ) : EReal)) (r : Fin 50000) (j : Fin 128) :
    Cert.RBn.bnRelu (F := Ideal) h g be (ix2 r j)
      = ((Cert.BnMath.normalised (fun r => a r j) (γ j) (β j) Cert.Consts.eps r : ℝ) : EReal) := by
  rw [Cert.ReadR.bnRelu_apply, Cert.ReadR.varOf_apply, Cert.ReadR.meanOf_apply, Cert.ReadR.varDen_apply]
  simp only [Cert.ReadR.centered_apply]
  simp only [ha]
  rw [hg, hb, Cert.Consts.ofBits_50000, Cert.Consts.ofBits_eps, Ideal.ofBits_zero_f32,
    show ((((0 : ℤ) : ℝ) : EReal)) = 0 by simp, sub_zero, Cert.BnMath.cmp_ogt_pos _ (by norm_num), select_one]
  simp only [zero_add]
  exact Cert.BnMath.from_deviations (fun r => a r j) (γ j) (β j) Cert.Consts.eps Cert.Consts.eps_pos r

end Cert.BnBridge

end
-- ==== Proof.HostDot.lean ====
/-
  The reference's two matrix products read at an entry: a plain [M, K] × [K, N] product at (r, j) is the sum over the
  contracted axis of x(r, k) · w(k, j), over the extended reals.
-/
import proofs.«163689_j11029476016716_1_alg».proof.Proof.RBn
import proofs.«163689_j11029476016716_1_alg».proof.Proof.LibPlainDot
import Idealize.ShloMosaic.PureOps.Ideal.Laws

noncomputable section

open scoped BigOperators

namespace Cert.HostDot

open Idealize.ShloMosaic Idealize.ShloMosaic.ValueIdx Cert.ReferenceIdeal

variable [Facts₀]
open Facts₀

/-- The first layer's product contracts axis 1 of the left operand with axis 0 of the right one. -/
theorem plain1 : PlainDot.IsPlain dot_S50000x64_S64x128_S50000x128_1_0_0_1_n_n where
  rank := rfl
  size := rfl
  lhs0 := fun _ _ => rfl
  lhs1 := fun _ _ => rfl
  rhs0 := fun _ _ => rfl
  rhs1 := fun _ _ => rfl

/-- So does the second layer's. -/
theorem plain2 : PlainDot.IsPlain dot_S50000x128_S128x64_S50000x64_1_0_0_1_n_n where
  rank := rfl
  size := rfl
  lhs0 := fun _ _ => rfl
  lhs1 := fun _ _ => rfl
  rhs0 := fun _ _ => rfl
  rhs1 := fun _ _ => rfl

theorem dot1_apply (x : FVec Ideal S50000x64 .f32) (w : FVec Ideal S64x128 .f32) (r : Fin 50000) (j : Fin 128) :
    Cert.RBn.dot1 (F := Ideal) x w (ix2 r j) = ∑ k : Fin 64, x (ix2 r k) * w (ix2 k j) := by
  unfold Cert.RBn.dot1
  show FloatOps.dotGeneral dot_S50000x64_S64x128_S50000x128_1_0_0_1_n_n none .single x w (ix2 r j) = _
  rw [Ideal.dotGeneral_apply, ← Equiv.sum_comp (contrEquiv1 dot_S50000x64_S64x128_S50000x128_1_0_0_1_n_n 64 plain1.rank plain1.size).symm]
  refine Finset.sum_congr rfl fun k _ => ?_
  rw [plain1.lhsIdx_eq r j k, plain1.rhsIdx_eq r j k]

theorem dot2_apply (h : FVec Ideal S50000x128 .f32) (w : FVec Ideal S128x64 .f32) (r : Fin 50000) (j : Fin 64) :
    Cert.RBn.dot2 (F := Ideal) h w (ix2 r j) = ∑ k : Fin 128, h (ix2 r k) * w (ix2 k j) := by
  unfold Cert.RBn.dot2
  show FloatOps.dotGeneral dot_S50000x128_S128x64_S50000x64_1_0_0_1_n_n none .single h w (ix2 r j) = _
  rw [Ideal.dotGeneral_apply, ← Equiv.sum_comp (contrEquiv1 dot_S50000x128_S128x64_S50000x64_1_0_0_1_n_n 128 plain2.rank plain2.size).symm]
  refine Finset.sum_congr rfl fun k _ => ?_
  rw [plain2.lhsIdx_eq r j k, plain2.rhsIdx_eq r j k]

end Cert.HostDot

end
-- ==== Proof.ChainEq.lean ====
/-
  The host arithmetic of the graph convolution is spelt with each program's own shape records; the two spellings are
  the same functions.
-/
import proofs.«163689_j11029476016716_1_alg».proof.Proof.KChain
import proofs.«163689_j11029476016716_1_alg».proof.Proof.RChain

noncomputable section

namespace Cert.ChainEq

open Idealize.ShloMosaic

variable {F : FTy → Type} [FloatOps F] [Cert.KernelIdeal.Facts₀] [Cert.ReferenceIdeal.Facts₀]

theorem srcOf_eq (ei : IVec Cert.KernelIdeal.S2x1600000 32) : Cert.KChain.srcOf ei = Cert.RChain.srcOf ei := rfl
theorem dstOf_eq (ei : IVec Cert.KernelIdeal.S2x1600000 32) : Cert.KChain.dstOf ei = Cert.RChain.dstOf ei := rfl
theorem normOf_eq (src dst : IVec Cert.KernelIdeal.S1650000 32) :
    Cert.KChain.normOf (F := F) src dst = Cert.RChain.normOf (F := F) src dst := rfl
theorem conv128_eq (src dst : IVec Cert.KernelIdeal.S1650000 32) (nrm : FVec F Cert.KernelIdeal.S1650000 .f32)
    (h : FVec F Cert.KernelIdeal.S50000x128 .f32) (b : FVec F Cert.KernelIdeal.S128 .f32) :
    Cert.KChain.conv128 src dst nrm h b = Cert.RChain.conv128 src dst nrm h b := rfl
theorem conv64_eq (src dst : IVec Cert.KernelIdeal.S1650000 32) (nrm : FVec F Cert.KernelIdeal.S1650000 .f32)
    (h : FVec F Cert.KernelIdeal.S50000x64 .f32) (b : FVec F Cert.KernelIdeal.S64 .f32) :
    Cert.KChain.conv64 src dst nrm h b = Cert.RChain.conv64 src dst nrm h b := rfl

end Cert.ChainEq

end
-- ==== Proof.Value.lean ====
/-
  The idealized kernel program's result is the reference's function of the arguments.

  With `S`, `D` the edge endpoints and `Nrm` the edge weights of the edge list, the kernel program computes
  `conv64 S D Nrm (P3) b2` where `P3 = R2 · w2` is its second blocked product, `R2` its normalising pass over
  `H = conv128 S D Nrm (P0) b1`, and `P0 = x · w1` its first blocked product.  The two blocked products are the plain
  products, entry by entry.  `H` is a REAL matrix when the inputs are (finite sums and products of reals), so the
  normalising pass from the column sums and sums of squares agrees with the reference's batch normalisation, entry by
  entry (`BnBridge`).  Everything else is the same host arithmetic on both sides.
-/
import proofs.«163689_j11029476016716_1_alg».proof.Proof.KFold
import proofs.«163689_j11029476016716_1_alg».proof.Proof.KRegionMM
import proofs.«163689_j11029476016716_1_alg».proof.Proof.KRegionBN
import proofs.«163689_j11029476016716_1_alg».proof.Proof.KRegionBNStats
import proofs.«163689_j11029476016716_1_alg».proof.Proof.RefRun
import proofs.«163689_j11029476016716_1_alg».proof.Proof.Finite
import proofs.«163689_j11029476016716_1_alg».proof.Proof.BnBridge
import proofs.«163689_j11029476016716_1_alg».proof.Proof.HostDot
import proofs.«163689_j11029476016716_1_alg».proof.Proof.ChainEq

noncomputable section

open scoped BigOperators

namespace Cert.Value

open Idealize.ShloMosaic Idealize.ShloMosaic.ValueIdx Idealize.ShloMosaic.TcCoe Idealize.SL.Sem
open Cert.KernelIdeal Cert.KernelIdeal.Gen Cert.Finite

/-- A plain product of real matrices is a real matrix. -/
theorem dot1_real (x : FVec Ideal S50000x64 .f32) (w : FVec Ideal S64x128 .f32) (hx : AllReal x) (hw : AllReal w) :
    AllReal (Cert.RBn.dot1 (F := Ideal) x w) := by
  intro i
  obtain ⟨r, j, rfl⟩ : ∃ (r : Fin 50000) (j : Fin 128), i = ix2 r j := ⟨i 0, i 1, eq_ix2 i⟩
  rw [Cert.HostDot.dot1_apply]
  exact real_sum _ _ fun k _ => real_mul (hx _) (hw _)

/-- The normalising pass of equal arrays is equal. -/
theorem pass_congr {h h' : S50000x128.Idx → EReal} {sc sc' sh sh' : S1x128.Idx → EReal} (e1 : h = h') (e2 : sc = sc') (e3 : sh = sh') :
    Cert.KRegion.bnRelu h sc sh = Cert.KRegion.bnRelu h' sc' sh' := by
  subst e1 e2 e3; rfl

variable (m : (ℓ : Loc nD τ sig) → Buf (Elt Ideal) ℓ) (ρ : Dev nD → PrngReg) (c : Dev nD)

set_option maxHeartbeats 4000000 in
/-- THE KERNEL PROGRAM'S RESULT, for real inputs. The arguments' launch contents are named at their literal array types by
    the equations `hx … hb2`. -/
theorem out_eq
    (x : S50000x64.Idx → EReal) (ei : IVec S2x1600000 32) (w1 : S64x128.Idx → EReal) (b1 g be : S128.Idx → EReal)
    (w2 : S128x64.Idx → EReal) (b2 : S64.Idx → EReal)
    (hx : (m ((c.tc : Thread nD τ).loc main_arg0) : S50000x64.Idx → EReal) = x)
    (hei : (m ((c.tc : Thread nD τ).loc main_arg1) : IVec S2x1600000 32) = ei)
    (hw1 : (m ((c.tc : Thread nD τ).loc main_arg2) : S64x128.Idx → EReal) = w1)
    (hb1 : (m ((c.tc : Thread nD τ).loc main_arg3) : S128.Idx → EReal) = b1)
    (hg : (m ((c.tc : Thread nD τ).loc main_arg4) : S128.Idx → EReal) = g)
    (hbe : (m ((c.tc : Thread nD τ).loc main_arg5) : S128.Idx → EReal) = be)
    (hw2 : (m ((c.tc : Thread nD τ).loc main_arg6) : S128x64.Idx → EReal) = w2)
    (hb2 : (m ((c.tc : Thread nD τ).loc main_arg7) : S64.Idx → EReal) = b2)
    (rx : AllReal x) (rw1 : AllReal w1) (rb1 : AllReal b1) (rg : AllReal g) (rbe : AllReal be) :
    (W10 m ρ c (Proc.devRef .tc main_v81) : S50000x64.Idx → EReal) = Cert.RefRun.refOut (F := Ideal) x ei w1 b1 g be w2 b2 := by
  -- the first blocked product is the plain product
  have hP0 : ((dat0 (F := Ideal) (V3 m ρ) c).arrAt 2 cfg0.N : S50000x128.Idx → EReal) = Cert.RBn.dot1 (F := Ideal) x w1 := by
    funext i
    obtain ⟨r, j, rfl⟩ : ∃ (r : Fin 50000) (j : Fin 128), i = ix2 r j := ⟨i 0, i 1, eq_ix2 i⟩
    rw [Cert.KRegion.region0_value (V3 m ρ) c r j x w1 ((Cert.KRun.V3_arg0 m ρ c).trans hx) ((Cert.KRun.V3_arg2 m ρ c).trans hw1),
      Cert.HostDot.dot1_apply]
  -- the matrix the normalisation reads
  obtain ⟨H, hH⟩ : ∃ H : S50000x128.Idx → EReal, H =
      Cert.KChain.conv128 (F := Ideal) (Cert.KChain.srcOf ei) (Cert.KChain.dstOf ei)
        (Cert.KChain.normOf (F := Ideal) (Cert.KChain.srcOf ei) (Cert.KChain.dstOf ei)) (Cert.RBn.dot1 (F := Ideal) x w1) b1 := ⟨_, rfl⟩
  have h7 : (V7 m ρ c main_v46 : S50000x128.Idx → EReal) = H := by
    have := Cert.KRun.V7_v46 m ρ c
    rw [hei, hb1, hP0, ← hH] at this
    exact this
  have h5 : (V5 m ρ c main_v46 : S50000x128.Idx → EReal) = H := by
    have := Cert.KRun.V5_v46 m ρ c
    rw [hei, hb1, hP0, ← hH] at this
    exact this
  have rH : AllReal H := by
    rw [hH]
    exact conv128_real _ _ _ _ _ (normOf_real _ _) (dot1_real x w1 rx rw1) rb1
  choose a ha using fun (r : Fin 50000) (j : Fin 128) => rH (ix2 r j)
  choose γ hγ using fun (j : Fin 128) => rg (ix1 j)
  choose β hβ using fun (j : Fin 128) => rbe (ix1 j)
  -- the column statistics
  obtain ⟨s, hs0⟩ : ∃ s : S1x128.Idx → EReal, s = ((dat1 (F := Ideal) (V5 m ρ) c).arrAt 1 cfg1.N : S1x128.Idx → EReal) := ⟨_, rfl⟩
  obtain ⟨ss, hss0⟩ : ∃ ss : S1x128.Idx → EReal, ss = ((dat1 (F := Ideal) (V5 m ρ) c).arrAt 2 cfg1.N : S1x128.Idx → EReal) := ⟨_, rfl⟩
  have hs : ∀ j : Fin 128, s (ix2 (0 : Fin 1) j) = ∑ r : Fin 50000, H (ix2 r j) := fun j => by
    rw [hs0]; exact Cert.KRegion.region1_sum (V5 m ρ) c j H h5
  have hss : ∀ j : Fin 128, ss (ix2 (0 : Fin 1) j) = ∑ r : Fin 50000, H (ix2 r j) * H (ix2 r j) := fun j => by
    rw [hss0]; exact Cert.KRegion.region1_sumsq (V5 m ρ) c j H h5
  have h62 : (V7 m ρ c main_v62 : S1x128.Idx → EReal) = Cert.KBn.scaleK (F := Ideal) s ss g := by
    have := Cert.KRun.V7_v62 m ρ c
    rw [hg, ← hs0, ← hss0] at this
    exact this
  have h63 : (V7 m ρ c main_v63 : S1x128.Idx → EReal) = Cert.KBn.shiftK (F := Ideal) s ss g be := by
    have := Cert.KRun.V7_v63 m ρ c
    rw [hg, hbe, ← hs0, ← hss0] at this
    exact this
  -- the normalising pass is the reference's batch normalisation
  have hB : (V8 m ρ c main_v64 : S50000x128.Idx → EReal) = Cert.RBn.bnRelu (F := Ideal) H g be := by
    refine (((Cert.KRun.V8_v64 m ρ c).trans (Cert.KRegion.final2 (V7 m ρ) c)).trans (pass_congr h7 h62 h63)).trans ?_
    funext i
    obtain ⟨r, j, rfl⟩ : ∃ (r : Fin 50000) (j : Fin 128), i = ix2 r j := ⟨i 0, i 1, eq_ix2 i⟩
    rw [Cert.KRegion.bnRelu_apply,
      Cert.BnBridge.kernel_entry H s ss g be a γ β ha hγ hβ hs hss r j,
      Cert.BnBridge.reference_entry H g be a γ β ha hγ hβ r j]
  -- the second blocked product is the plain product
  have hP3 : ((dat3 (F := Ideal) (V8 m ρ) c).arrAt 2 cfg3.N : S50000x64.Idx → EReal)
      = Cert.RBn.dot2 (F := Ideal) (Cert.RBn.bnRelu (F := Ideal) H g be) w2 := by
    funext i
    obtain ⟨r, j, rfl⟩ : ∃ (r : Fin 50000) (j : Fin 64), i = ix2 r j := ⟨i 0, i 1, eq_ix2 i⟩
    rw [Cert.KRegion.region3_value (V8 m ρ) c r j _ w2 hB ((Cert.KRun.V8_arg6 m ρ c).trans hw2),
      Cert.HostDot.dot2_apply]
  have hout := Cert.KRun.W10_out m ρ c
  rw [hei, hb2, hP3, hH] at hout
  unfold Cert.RefRun.refOut
  rw [← Cert.ChainEq.srcOf_eq ei, ← Cert.ChainEq.dstOf_eq ei, ← Cert.ChainEq.normOf_eq, ← Cert.ChainEq.conv128_eq, ← Cert.ChainEq.conv64_eq]
  exact hout

end Cert.Value

end
-- ==== Proof.PreReal.lean ====
/-
  From the precondition to real entries. The precondition states, for each of the seven float inputs x, that
  every entry satisfies |x| < +∞ (the comparison reduced by `and` over all entries), and takes the conjunction
  of the seven. In the extended reals |v| = max v (-v), and max v (-v) < ⊤ excludes both v = ⊤ and v = ⊥
  (where -v = ⊤), so every entry of every float input is the coercion of a real number.
-/
import proofs.«163689_j11029476016716_1_alg».proof.Defs
import proofs.«163689_j11029476016716_1_alg».proof.Proof.Gen.Pre_finite_inputs
import Idealize.ShloMosaic.Lib.ReduceAll
import Idealize.ShloMosaic.Lib.ValueIdx

noncomputable section

namespace Cert.PreReal

open Idealize.ShloMosaic Idealize.SL.Sem

/-- Every entry is a real number. -/
def AllReal {S : Idealize.ShloMosaic.Shape} (v : S.Idx → EReal) : Prop := ∀ i, ∃ x : ℝ, v i = (x : EReal)

/-- The scalar shape has one index. -/
instance : Subsingleton Cert.Pre_finite_inputs.S_.Idx := ⟨fun a b => funext fun d => d.elim0⟩

/-- An extended real whose absolute value max v (-v) is below +∞ (the f32 pattern 0x7F800000) is a real number. -/
theorem real_of_abs_lt_top (v : EReal)
    (h : Ideal.cmp .olt (max v (-v)) (Ideal.ofBits .f32 0x7F800000#32) = 1#1) : ∃ x : ℝ, v = (x : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- One input: if the `and` over all entries of |x| < +∞ is 1, every entry of x is a real number. -/
theorem allReal_of_all {s : Shape} {axes : List (Fin s.rank)} (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (init : IVec Cert.Pre_finite_inputs.S_ 1)
    (e : Host.reduce IntOp.andi
          (cmpf .olt (Host.absf (F := Ideal) x)
            (broadcastInDim s ![] hb (constant (F := Ideal) Cert.Pre_finite_inputs.S_ .f32 0x7F800000#32)))
          init h hu ValueIdx.ix0 = 1#1) :
    AllReal x := by
  intro i
  have hi := Host.reduce_andi_all _ init h hu ValueIdx.ix0 e i
  exact real_of_abs_lt_top (x i) hi

/-- The precondition decoded: every entry of each of the seven float inputs is a real number. -/
theorem inputs_real [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : Cert.KernelIdeal.S50000x64.Idx → EReal)
    ∧ AllReal (m ((c.tc : Thread Cert.KernelIdeal.nD Cert.KernelIdeal.τ).loc Cert.KernelIdeal.main_arg2) : Cert.KernelIdeal.S64x128.Idx → EReal)
    ∧ AllReal (m ((c.tc : Thread Cert.KernelIdeal.nD Cert.KernelIdeal.τ).loc Cert.KernelIdeal.main_arg3) : Cert.KernelIdeal.S128.Idx → EReal)
    ∧ AllReal (m ((c.tc : Thread Cert.KernelIdeal.nD Cert.KernelIdeal.τ).loc Cert.KernelIdeal.main_arg4) : Cert.KernelIdeal.S128.Idx → EReal)
    ∧ AllReal (m ((c.tc : Thread Cert.KernelIdeal.nD Cert.KernelIdeal.τ).loc Cert.KernelIdeal.main_arg5) : Cert.KernelIdeal.S128.Idx → EReal)
    ∧ AllReal (m ((c.tc : Thread Cert.KernelIdeal.nD Cert.KernelIdeal.τ).loc Cert.KernelIdeal.main_arg6) : Cert.KernelIdeal.S128x64.Idx → EReal)
    ∧ AllReal (m ((c.tc : Thread Cert.KernelIdeal.nD Cert.KernelIdeal.τ).loc Cert.KernelIdeal.main_arg7) : Cert.KernelIdeal.S64.Idx → EReal) := by
  have e := congrFun (h c) ValueIdx.ix0
  dsimp only [Cert.Pre_finite_inputs.fn, Cert.Pre_finite_inputs.fn_part1, andi] at e
  simp only [IntOp.andi_eq_one] at e
  obtain ⟨⟨⟨⟨⟨⟨e0, e2⟩, e3⟩, e4⟩, e5⟩, e6⟩, e7⟩ := e
  exact ⟨allReal_of_all _ _ _ _ _ e0, allReal_of_all _ _ _ _ _ e2, allReal_of_all _ _ _ _ _ e3,
    allReal_of_all _ _ _ _ _ e4, allReal_of_all _ _ _ _ _ e5, allReal_of_all _ _ _ _ _ e6, allReal_of_all _ _ _ _ _ e7⟩

end Cert.PreReal

end
-- ==== Proof.lean ====
/-
  A two-layer graph convolution with batch normalisation between the layers: the kernel program against its reference,
  over the extended reals.

  Both programs build the same edge endpoints (the edge list followed by one self loop per node), node degrees and edge
  weights, and run the same convolution around a matrix product: gather the rows of `x · W` at the edges' sources,
  scale by the edge weights, add them up at the edges' destinations, add the bias.  The kernel program computes the
  two products block by block (10 blocks of 5000 rows, the operands first rounded to a shorter format, which is the
  identity over the extended reals) and normalises in two passes: one accumulates the column sums and the column sums of
  squares of the hidden matrix over the 10 blocks, the other applies `h · scale + shift` and the ramp, with
  `scale = g · (E[h²] - E[h]² + ε)^(-1/2)` and `shift = be - E[h] · scale`.  The reference normalises with the variance
  as the mean of the squared deviations, `((h - E[h]) · (Var h + ε)^(-1/2)) · g + be`, then the ramp.  The two agree
  because the hidden matrix is a REAL matrix when the inputs are finite (it is built from them by finite sums and
  products; the edge weights are real because a positive degree has a real reciprocal square root), and for real columns
  `E[h²] - E[h]² = Var h` and the two normalisations are the same real number.  The block products are the plain
  products entry by entry, a sum over the contracted axis in any order.

  The frames of the two kernel programs are the generated ones.  The reference's run is its operations folded over the
  launch memory; the kernel program's run names its result at the last segment boundary's contents.
-/
import proofs.«163689_j11029476016716_1_alg».proof.Defs
import proofs.«163689_j11029476016716_1_alg».proof.Proof.Gen.Kernel
import proofs.«163689_j11029476016716_1_alg».proof.Proof.Gen.Kernel.Skeleton
import proofs.«163689_j11029476016716_1_alg».proof.Proof.Gen.Kernel.Launch
import proofs.«163689_j11029476016716_1_alg».proof.Proof.Gen.Kernel.Points
import proofs.«163689_j11029476016716_1_alg».proof.Proof.Gen.Kernel.Frame
import proofs.«163689_j11029476016716_1_alg».proof.Proof.Gen.KernelIdeal
import proofs.«163689_j11029476016716_1_alg».proof.Proof.Gen.KernelIdeal.Skeleton
import proofs.«163689_j11029476016716_1_alg».proof.Proof.Gen.KernelIdeal.Launch
import proofs.«163689_j11029476016716_1_alg».proof.Proof.Gen.KernelIdeal.Points
import proofs.«163689_j11029476016716_1_alg».proof.Proof.Gen.KernelIdeal.Frame
import proofs.«163689_j11029476016716_1_alg».proof.Proof.Gen.ReferenceIdeal
import proofs.«163689_j11029476016716_1_alg».proof.Proof.Gen.Pre_finite_inputs
import proofs.«163689_j11029476016716_1_alg».proof.Proof.KRunV
import proofs.«163689_j11029476016716_1_alg».proof.Proof.Value
import proofs.«163689_j11029476016716_1_alg».proof.Proof.PreReal
import proofs.«163689_j11029476016716_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs: its operations in order; none writes an argument. -/
theorem frame_ri : Cert.frame_ReferenceIdeal := fun m ρ _ =>
  (θ_run Cert.ReferenceIdeal.defs _ _).mono (fun _ h c =>
      ⟨(h c Cert.ReferenceIdeal.main_arg0).trans (Cert.RefRun.arg0_eq _),
       (h c Cert.ReferenceIdeal.main_arg1).trans (Cert.RefRun.arg1_eq _),
       (h c Cert.ReferenceIdeal.main_arg2).trans (Cert.RefRun.arg2_eq _),
       (h c Cert.ReferenceIdeal.main_arg3).trans (Cert.RefRun.arg3_eq _),
       (h c Cert.ReferenceIdeal.main_arg4).trans (Cert.RefRun.arg4_eq _),
       (h c Cert.ReferenceIdeal.main_arg5).trans (Cert.RefRun.arg5_eq _),
       (h c Cert.ReferenceIdeal.main_arg6).trans (Cert.RefRun.arg6_eq _),
       (h c Cert.ReferenceIdeal.main_arg7).trans (Cert.RefRun.arg7_eq _)⟩)
    (Cert.RefRun.run_main (F := Ideal) m ρ)

/-- The reference's function of equal arguments is equal. -/
theorem refOut_congr {x x' : FVec Ideal Cert.ReferenceIdeal.S50000x64 .f32} {ei ei' : IVec Cert.ReferenceIdeal.S2x1600000 32}
    {w1 w1' : FVec Ideal Cert.ReferenceIdeal.S64x128 .f32} {b1 b1' g g' be be' : FVec Ideal Cert.ReferenceIdeal.S128 .f32}
    {w2 w2' : FVec Ideal Cert.ReferenceIdeal.S128x64 .f32} {b2 b2' : FVec Ideal Cert.ReferenceIdeal.S64 .f32}
    (h0 : x = x') (h1 : ei = ei') (h2 : w1 = w1') (h3 : b1 = b1') (h4 : g = g') (h5 : be = be') (h6 : w2 = w2') (h7 : b2 = b2') :
    Cert.RefRun.refOut (F := Ideal) x ei w1 b1 g be w2 b2 = Cert.RefRun.refOut (F := Ideal) x' ei' w1' b1' g' be' w2' b2' := by
  rw [h0, h1, h2, h3, h4, h5, h6, h7]

/-- From memories that agree on the arguments, under the precondition, both idealized programs run and end with the
    reference's function of the arguments in their result arrays. -/
theorem algebraic : Cert.algebraic_KernelIdeal_ReferenceIdeal := by
  intro m ρ m' ρ' hpre hagree
  refine ⟨fun c => Cert.RefRun.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KRun.runV (F := Ideal) m ρ)
    obtain ⟨r0, r2, r3, r4, r5, _, _⟩ := Cert.PreReal.inputs_real m hpre c
    exact Cert.Value.out_eq m ρ c _ _ _ _ _ _ _ _ rfl rfl rfl rfl rfl rfl rfl rfl r0 r2 r3 r4 r5
  · refine (θ_run Cert.ReferenceIdeal.defs _ _).mono (fun r h c =>
        ⟨?_,
         (h c Cert.ReferenceIdeal.main_arg0).trans (Cert.RefRun.arg0_eq _),
         (h c Cert.ReferenceIdeal.main_arg1).trans (Cert.RefRun.arg1_eq _),
         (h c Cert.ReferenceIdeal.main_arg2).trans (Cert.RefRun.arg2_eq _),
         (h c Cert.ReferenceIdeal.main_arg3).trans (Cert.RefRun.arg3_eq _),
         (h c Cert.ReferenceIdeal.main_arg4).trans (Cert.RefRun.arg4_eq _),
         (h c Cert.ReferenceIdeal.main_arg5).trans (Cert.RefRun.arg5_eq _),
         (h c Cert.ReferenceIdeal.main_arg6).trans (Cert.RefRun.arg6_eq _),
         (h c Cert.ReferenceIdeal.main_arg7).trans (Cert.RefRun.arg7_eq _)⟩)
      (Cert.RefRun.run_main (F := Ideal) m' ρ')
    obtain ⟨e0, e1, e2, e3, e4, e5, e6, e7⟩ := hagree c
    exact ((h c Cert.ReferenceIdeal.main_v113).trans (Cert.RefRun.out_eq _)).trans (refOut_congr e0 e1 e2 e3 e4 e5 e6 e7)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
